-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072x1024 .f32 := Host.absf main_arg9
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg10
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S64 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S64x1024 .f32) (main_arg3 : FVec F S50257x1024 .f32) (main_arg4 : FVec F S64x2048 .f32) (main_arg5 : FVec F S64 .f32) (main_arg6 : FVec F S1024x2048 .f32) (main_arg7 : FVec F S1024 .f32) (main_arg8 : FVec F S3072x1024 .f32) (main_arg9 : FVec F S3072x1024 .f32) (main_arg10 : FVec F S3072 .f32) (main_arg11 : FVec F S3072 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S64x2048 .f32 := Host.absf main_arg4
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x64 : Shape := ⟨2, ![2048, 64]⟩
abbrev S1x64 : Shape := ⟨2, ![1, 64]⟩
abbrev S2048x1024 : Shape := ⟨2, ![2048, 1024]⟩
abbrev S1024x3072 : Shape := ⟨2, ![1024, 3072]⟩
abbrev S1x3072 : Shape := ⟨2, ![1, 3072]⟩
abbrev S1x50257 : Shape := ⟨2, ![1, 50257]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩

abbrev nBuf : Space → Nat
  | .hbm => 95
  | .vmem => 7
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S64x1024, .f32⟩
  | .hbm, ⟨3, _⟩ => ⟨S50257x1024, .f32⟩
  | .hbm, ⟨4, _⟩ => ⟨S64x2048, .f32⟩
  | .hbm, ⟨5, _⟩ => ⟨S64, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x50257, .f32⟩
  | .hbm, ⟨94, _⟩ => ⟨S1x1x1024, .f32⟩
  | .local _ .vmem, ⟨0, _⟩ => ⟨S1x1024, .f32⟩
  | .local _ .vmem, ⟨1, _⟩ => ⟨S4096x1024, .f32⟩
  | .local _ .vmem, ⟨2, _⟩ => ⟨S4096x1024, .f32⟩
  | .local _ .vmem, ⟨3, _⟩ => ⟨S4096, .f32⟩
  | .local _ .vmem, ⟨4, _⟩ => ⟨S4096, .f32⟩
  | .local _ .vmem, ⟨5, _⟩ => ⟨S1x4096, .f32⟩
  | .local _ .vmem, ⟨6, _⟩ => ⟨S1x4096, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S64x2048_S2048x64_1_0 : S64x2048.Transposes [1, 0] S2048x64
  bcast_S64_S1x64_1 : S64.BroadcastsInDim S1x64 (![1] : Fin 1 → Fin S1x64.rank)
  reducesTo_S1x64_S1_d1 : S1x64.ReducesTo [1] S1
  h_S_ : 0 < S_.numel
  bcast_S1x1_S1x64_0_1 : S1x1.BroadcastsInDim S1x64 (![0, 1] : Fin 2 → Fin S1x64.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S4096x1024_S4096x1024_0_0 : ∀ a, (![0, 0] : Fin 2 → Nat) a + S4096x1024.size a ≤ S4096x1024.size a
  h_S4096x1024 : 0 < S4096x1024.numel
  inb_S4096_S4096_0 : ∀ a, (![0] : Fin 1 → Nat) a + S4096.size a ≤ S4096.size a
  h_S4096 : 0 < S4096.numel
  transposes_S4096x1024_p1_0_S1024x4096 : S4096x1024.Transposes [1, 0] S1024x4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x64_S1x64_1_0_0_1_n_n_wf : DotDims.WF S1x2048 S2048x64 S1x64 [1] [0] [0] [1] [] []
  dot_S1x64_S64x1024_S1x1024_1_0_0_1_n_n_wf : DotDims.WF S1x64 S64x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x4096_S1x4096_1_0_0_1_n_n_wf : DotDims.WF S1x1024 S1024x4096 S1x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x1024.size a < S50257x1024.size a
  hwx0_1 : ∀ i : grid0.Coords, EltTy.bits .f32 = 32 ∨ (Rect.unit (s := S50257x1024) (fun a => cc0_transform_1 i a * S4096x1024.size a) (fun a => (Pipeline.Clip.of (cc0_transform_1 i a) (S4096x1024.size a) (S50257x1024.size a)).extent (S4096x1024.size a)) fun a => Pipeline.Clip.inb (Pipeline.Clip.ok_of (hstart0_1 i a))).WholeWords (EltTy.packing .f32)
  hwxs0_1 : ∀ i : grid0.Coords, EltTy.bits .f32 = 32 ∨ (Rect.unit (s := S4096x1024) (fun _ => 0) (fun a => (Pipeline.Clip.of (cc0_transform_1 i a) (S4096x1024.size a) (S50257x1024.size a)).extent (S4096x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096.size a < S50257.size a
  hwx0_2 : ∀ i : grid0.Coords, EltTy.bits .f32 = 32 ∨ (Rect.unit (s := S50257) (fun a => cc0_transform_2 i a * S4096.size a) (fun a => (Pipeline.Clip.of (cc0_transform_2 i a) (S4096.size a) (S50257.size a)).extent (S4096.size a)) fun a => Pipeline.Clip.inb (Pipeline.Clip.ok_of (hstart0_2 i a))).WholeWords (EltTy.packing .f32)
  hwxs0_2 : ∀ i : grid0.Coords, EltTy.bits .f32 = 32 ∨ (Rect.unit (s := S4096) (fun _ => 0) (fun a => (Pipeline.Clip.of (cc0_transform_2 i a) (S4096.size a) (S50257.size a)).extent (S4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x4096.size a < S1x50257.size a
  hwx0_3 : ∀ i : grid0.Coords, EltTy.bits .f32 = 32 ∨ (Rect.unit (s := S1x50257) (fun a => cc0_transform_3 i a * S1x4096.size a) (fun a => (Pipeline.Clip.of (cc0_transform_3 i a) (S1x4096.size a) (S1x50257.size a)).extent (S1x4096.size a)) fun a => Pipeline.Clip.inb (Pipeline.Clip.ok_of (hstart0_3 i a))).WholeWords (EltTy.packing .f32)
  hwxs0_3 : ∀ i : grid0.Coords, EltTy.bits .f32 = 32 ∨ (Rect.unit (s := S1x4096) (fun _ => 0) (fun a => (Pipeline.Clip.of (cc0_transform_3 i a) (S1x4096.size a) (S1x50257.size a)).extent (S1x4096.size a)) fun a => (Nat.zero_add _).trans_le (Pipeline.Clip.extent_le (Pipeline.Clip.ok_of (hstart0_3 i a)))).WholeWords (EltTy.packing .f32)

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf

abbrev win0_0 : Pipeline.Window sig grid0 :=
  Pipeline.Window.ofSpec (Memref.whole main_v66) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg12) S4096x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg13) S4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v67) S1x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S64x1024 : Shape := ⟨2, ![64, 1024]⟩
abbrev S50257x1024 : Shape := ⟨2, ![50257, 1024]⟩
abbrev S64x2048 : Shape := ⟨2, ![64, 2048]⟩
abbrev S64 : Shape := ⟨1, ![64]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S50257 : Shape := ⟨1, ![50257]⟩
abbrev S_ : Shape := ⟨0, ![]⟩
abbrev S1x1 : Shape := ⟨2, ![1, 1]⟩
abbrev S1x1024 : Shape := ⟨2, ![1, 1024]⟩
abbrev S1x2048 : Shape := ⟨2, ![1, 2048]⟩
abbrev S2048x64 : Shape := ⟨2, ![2048, 64]⟩
abbrev S1x64 : Shape := ⟨2, ![1, 64]⟩
abbrev S2048x1024 : Shape := ⟨2, ![2048, 1024]⟩
abbrev S1024x3072 : Shape := ⟨2, ![1024, 3072]⟩
abbrev S1x3072 : Shape := ⟨2, ![1, 3072]⟩
abbrev S1024x50257 : Shape := ⟨2, ![1024, 50257]⟩
abbrev S1x50257 : Shape := ⟨2, ![1, 50257]⟩

abbrev nBuf : Space → Nat
  | .hbm => 98
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S64x1024, .f32⟩
  | .hbm, ⟨3, _⟩ => ⟨S50257x1024, .f32⟩
  | .hbm, ⟨4, _⟩ => ⟨S64x2048, .f32⟩
  | .hbm, ⟨5, _⟩ => ⟨S64, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072x1024, .f32⟩
  | .hbm, ⟨10, _⟩ => ⟨S3072, .f32⟩
  | .hbm, ⟨11, _⟩ => ⟨S3072, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x1024, .f32⟩
  | .hbm, ⟨23, _⟩ => ⟨S1x1024, .f32⟩
  | .hbm, ⟨24, _⟩ => ⟨S1x2048, .f32⟩
  | .hbm, ⟨25, _⟩ => ⟨S2048x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x1024, .f32⟩
  | .hbm, ⟨44, _⟩ => ⟨S1x2048, .f32⟩
  | .hbm, ⟨45, _⟩ => ⟨S2048x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1024x3072, .f32⟩
  | .hbm, ⟨53, _⟩ => ⟨S1x3072, .f32⟩
  | .hbm, ⟨54, _⟩ => ⟨S1x3072, .f32⟩
  | .hbm, ⟨55, _⟩ => ⟨S1x3072, .f32⟩
  | .hbm, ⟨56, _⟩ => ⟨S1024x3072, .f32⟩
  | .hbm, ⟨57, _⟩ => ⟨S1x3072, .f32⟩
  | .hbm, ⟨58, _⟩ => ⟨S1x3072, .f32⟩
  | .hbm, ⟨59, _⟩ => ⟨S1x3072, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1024x50257, .f32⟩
  | .hbm, ⟨94, _⟩ => ⟨S1x50257, .f32⟩
  | .hbm, ⟨95, _⟩ => ⟨S1x50257, .f32⟩
  | .hbm, ⟨96, _⟩ => ⟨S1x50257, .f32⟩
  | .hbm, ⟨97, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_3 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x1024_S1x1024 : S1x1x1024.ShapeCasts S1x1024
  concatenates_S1x1024_S1x1024_S1x2048_d1 : Shape.Concatenates [S1x1024, S1x1024] S1x2048 1
  transposes_S64x2048_S2048x64_1_0 : S64x2048.Transposes [1, 0] S2048x64
  bcast_S64_S1x64_1 : S64.BroadcastsInDim S1x64 (![1] : Fin 1 → Fin S1x64.rank)
  reducesTo_S1x64_S1_d1 : S1x64.ReducesTo [1] S1
  h_S_ : 0 < S_.numel
  bcast_S1x1_S1x64_0_1 : S1x1.BroadcastsInDim S1x64 (![0, 1] : Fin 2 → Fin S1x64.rank)
  transposes_S1024x2048_S2048x1024_1_0 : S1024x2048.Transposes [1, 0] S2048x1024
  bcast_S1024_S1x1024_1 : S1024.BroadcastsInDim S1x1024 (![1] : Fin 1 → Fin S1x1024.rank)
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S50257x1024_S1024x50257_1_0 : S50257x1024.Transposes [1, 0] S1024x50257
  bcast_S50257_S1x50257_1 : S50257.BroadcastsInDim S1x50257 (![1] : Fin 1 → Fin S1x50257.rank)
  bcast_S1x1024_S1x1x1024_1_2 : S1x1024.BroadcastsInDim S1x1x1024 (![1, 2] : Fin 2 → Fin S1x1x1024.rank)
  gather_S50257x1024_S1x1_S1x1024_1_0_n_n_0_1_11024_wf : GatherDims.WF S50257x1024 S1x1 S1x1024 [1] [0] [] [0] [] 1 ![1, 1024]
  dot_S1x2048_S2048x64_S1x64_1_0_0_1_n_n_wf : DotDims.WF S1x2048 S2048x64 S1x64 [1] [0] [0] [1] [] []
  dot_S1x64_S64x1024_S1x1024_1_0_0_1_n_n_wf : DotDims.WF S1x64 S64x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x50257_S1x50257_1_0_0_1_n_n_wf : DotDims.WF S1x1024 S1024x50257 S1x50257 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x2048_S2048x64_S1x64_1_0_0_1_n_n : DotDims S1x2048 S2048x64 S1x64 where
  lhsContracting := [1]
  rhsContracting := [0]
  lhsNonContracting := [0]
  rhsNonContracting := [1]
  lhsBatch := []
  rhsBatch := []
  wf := dot_S1x2048_S2048x64_S1x64_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.BodyBits.lean ====
/-
  The kernel body of the vocabulary projection, as a separation-logic triple at any float instance.

  The body loads the resident row vector h (1 × 1024), one tile of the weight matrix W (4096 × 1024) and one tile of the
  bias b (4096), forms  h · Wᵀ + b  (a 1 × 4096 row), and stores that row over the whole output tile. Nothing else is
  touched: the three input tiles are left as found, and the output tile ends holding the row, a pure function
  `tileRow` of the three loaded tiles.
-/
import proofs.«152729_j16836271800433_1_alg».proof.Proof.Gen.Kernel.Frame
import proofs.«152729_j16836271800433_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-! ## The four whole-tile accesses -/

abbrev rH : Rect S1x1024 := Rect.unit (s := S1x1024) ![0, 0] S1x1024.size Facts₀.inb_S1x1024_S1x1024_0_0
abbrev rW : Rect S4096x1024 := Rect.unit (s := S4096x1024) ![0, 0] S4096x1024.size Facts₀.inb_S4096x1024_S4096x1024_0_0
abbrev rB : Rect S4096 := Rect.unit (s := S4096) ![0] S4096.size Facts₀.inb_S4096_S4096_0
abbrev rO : Rect S1x4096 := Rect.unit (s := S1x4096) ![0, 0] S1x4096.size Facts₀.inb_S1x4096_S1x4096_0_0

/-- The row the body stores: h · Wᵀ + b on the loaded tiles. -/
def tileRow (h : Vec F S1x1024 .f32) (w : Vec F S4096x1024 .f32) (b : Vec F S4096 .f32) : Vec F S1x4096 .f32 :=
  View.canon [⟨rO, k0_pay1 (View.ld h rH) (View.ld w rW) (View.ld b rB)⟩]

/-- The one store is of the whole output tile, so it covers it. -/
theorem tileRow_cover (p0 : Vec F S1x4096 .f32) (y : S1x4096.Idx) :
    ∃ pc ∈ ([⟨rO, p0⟩] : List (View.Piece (Elt F) S1x4096 .f32)), y ∈ pc.1.set :=
  View.cover_of_tiled [⟨rO, p0⟩] S1x4096.size (by rfl) y

set_option maxHeartbeats 1000000 in
/-- The body on whole staging tiles: the inputs at `h`, `w`, `b`, the output at anything; it runs without fault to the
    inputs as they were and the output at `tileRow h w b`. -/
theorem sound_kernel (c : Dev nD) (E : Set ℕ) (i : grid0.Coords)
    (arg1 : Memref sig .tc .vmem S1x1024 .f32) (harg1 : arg1.IsWhole)
    (arg2 : Memref sig .tc .vmem S4096x1024 .f32) (harg2 : arg2.IsWhole)
    (arg3 : Memref sig .tc .vmem S4096 .f32) (harg3 : arg3.IsWhole)
    (arg4 : Memref sig .tc .vmem S1x4096 .f32) (harg4 : arg4.IsWhole)
    (h : Vec F S1x1024 .f32) (w : Vec F S4096x1024 .f32) (b : Vec F S4096 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (tileRow h w b)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileRow_cover _)

end Cert.Kernel.Body

end
-- ==== Proof.FrameBits.lean ====
/-
  The word-level program's frame: it runs to the end, faults nowhere, and leaves every argument array as it found it.

  At the word level the matrix unit's result at an output column is not a stated function of that column's operands alone, and
  the last of the thirteen tiles of W and b overhangs its array, so the staging buffers hold, past the array's end, words
  nothing names. The frame does not need to know them: the proof data here is RELATIONAL and asks nothing of what the body
  leaves in any staging buffer. The body's triple (any contents in, the same inputs and some output out) discharges the
  obligation; the two staged arguments (W and b) are inputs, never written back, and every other argument is outside the
  pipeline and not written by the host lines around it.
-/
import proofs.«152729_j16836271800433_1_alg».proof.Proof.BodyBits
import Idealize.ShloMosaic.Lib.Pipeline.FrameSuffix
import Idealize.ShloMosaic.Lib.Pipeline.Kit

set_option maxRecDepth 16384

noncomputable section

namespace Cert.Kernel.FrameR

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data on core `c`: the arrays as the region finds them; nothing asked of any staging buffer after the
    body; the class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`: each current staging buffer at the contents `Y` names, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3))

/-- and what it returns: each at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X))

/-- The body at any point, on any contents: the body's triple; the invariant and the core's debts pass through unread. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (tileRow (Y 0) (Y 1) (Y 2)); isplitr; · ipureintro; trivial
    iexact H3

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

/-- The one host line after the region writes only its own result. -/
theorem tail_writes : ∀ ops ∈ ([hostOps1] : List (List (HloOp τ sig (Elt F)))), ∀ op ∈ ops,
    ∀ b : Ref sig .tc, Proc.devRef .tc b ∈ op.writes → b ∈ ({main_v68} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.unary_writes, Finset.mem_singleton] at hb
  rw [Finset.mem_singleton]
  exact Proc.devRef_injective _ hb

set_option backward.isDefEq.respectTransparency.types false in
/-- Every weakly fair execution of @main terminates without fault; each staged array may hold only what the relational data
    allows, and every other unscoped buffer the host tail does not write holds its region-entry contents. -/
theorem run_main : θ_run defs (onTc (τ := τ) (main (F := F))) (s₀ m ρ)
    (RDat.FramePostR cfg0 (rdat m) {main_v68} (fun c b => V0 m c (Proc.devRef .tc b))) :=
  RDat.θ_run_frame_around_T cfgs (0 : Fin 1) launch0 defs₀ Variants.none (rdat m) {main_v68} m ρ main
    (hbody := body_obligation m) (hshare := fun c => (rdat m c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- The frame: the twelve arguments outside the pipeline hold their region-entry contents, which are their launch contents;
    the two staged ones are inputs of the pipeline and hold their entry contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      (Eq.mp (congrFun (RDat.ArrAt_in (rdat m c) 1 rfl cfg0.N) _) ((h c).1 1)).trans (V_main_arg12 m c),
      (Eq.mp (congrFun (RDat.ArrAt_in (rdat m c) 2 rfl cfg0.N) _) ((h c).1 2)).trans (V_main_arg13 m c)⟩) (run_main m ρ)

end Cert.Kernel.FrameR

end
-- ==== Proof.BodyIdeal.lean ====
/-
  The kernel body of the vocabulary projection, as a separation-logic triple at any float instance.

  The body loads the resident row vector h (1 × 1024), one tile of the weight matrix W (4096 × 1024) and one tile of the
  bias b (4096), forms  h · Wᵀ + b  (a 1 × 4096 row), and stores that row over the whole output tile. Nothing else is
  touched: the three input tiles are left as found, and the output tile ends holding the row, a pure function
  `tileRow` of the three loaded tiles.
-/
import proofs.«152729_j16836271800433_1_alg».proof.Proof.Gen.KernelIdeal.Frame
import proofs.«152729_j16836271800433_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Facts₀ Facts

variable {F : FTy → Type} [FloatOps F]

local notation "𝕄" => MT nD τ sig Unit (Elt F) ℕ (UR sig nD τ) ℕ

/-! ## The four whole-tile accesses -/

abbrev rH : Rect S1x1024 := Rect.unit (s := S1x1024) ![0, 0] S1x1024.size Facts₀.inb_S1x1024_S1x1024_0_0
abbrev rW : Rect S4096x1024 := Rect.unit (s := S4096x1024) ![0, 0] S4096x1024.size Facts₀.inb_S4096x1024_S4096x1024_0_0
abbrev rB : Rect S4096 := Rect.unit (s := S4096) ![0] S4096.size Facts₀.inb_S4096_S4096_0
abbrev rO : Rect S1x4096 := Rect.unit (s := S1x4096) ![0, 0] S1x4096.size Facts₀.inb_S1x4096_S1x4096_0_0

/-- The row the body stores: h · Wᵀ + b on the loaded tiles. -/
def tileRow (h : Vec F S1x1024 .f32) (w : Vec F S4096x1024 .f32) (b : Vec F S4096 .f32) : Vec F S1x4096 .f32 :=
  View.canon [⟨rO, k0_pay1 (View.ld h rH) (View.ld w rW) (View.ld b rB)⟩]

/-- The one store is of the whole output tile, so it covers it. -/
theorem tileRow_cover (p0 : Vec F S1x4096 .f32) (y : S1x4096.Idx) :
    ∃ pc ∈ ([⟨rO, p0⟩] : List (View.Piece (Elt F) S1x4096 .f32)), y ∈ pc.1.set :=
  View.cover_of_tiled [⟨rO, p0⟩] S1x4096.size (by rfl) y

set_option maxHeartbeats 1000000 in
/-- The body on whole staging tiles: the inputs at `h`, `w`, `b`, the output at anything; it runs without fault to the
    inputs as they were and the output at `tileRow h w b`. -/
theorem sound_kernel (c : Dev nD) (E : Set ℕ) (i : grid0.Coords)
    (arg1 : Memref sig .tc .vmem S1x1024 .f32) (harg1 : arg1.IsWhole)
    (arg2 : Memref sig .tc .vmem S4096x1024 .f32) (harg2 : arg2.IsWhole)
    (arg3 : Memref sig .tc .vmem S4096 .f32) (harg3 : arg3.IsWhole)
    (arg4 : Memref sig .tc .vmem S1x4096 .f32) (harg4 : arg4.IsWhole)
    (h : Vec F S1x1024 .f32) (w : Vec F S4096x1024 .f32) (b : Vec F S4096 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (tileRow h w b)) -∗ K ⟨⟩))
      ⊢ wp frame (wpE (defs₀ (F := F)) Variants.none c none) E (cc0__out_proj_kernel i arg1 harg1 arg2 harg2 arg3 harg3 arg4 harg4) K := by
  simp only [cc0__out_proj_kernel_eq_skeleton]; unfold cc0__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tileRow_cover _)

end Cert.KernelIdeal.Body

end
-- ==== Proof.TileRowIdeal.lean ====
/-
  The stored row at the ideal values, read at a column.

  Over the extended reals the matrix unit's product into a zero accumulator is the plain sum over the contraction index,
  the transpose and the two shape casts only re-index, and the final add is +. So column q of the row the body stores is
      Σ_k h[0,k] · w[q,k]  +  b[q]
  — it depends on row q of the weight tile and entry q of the bias tile only, which is why whatever sits in the rows of
  a tile past the array's end never reaches a column that is written back.
-/
import proofs.«152729_j16836271800433_1_alg».proof.Proof.BodyIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileRow

open Cert.KernelIdeal Cert.KernelIdeal.Gen Cert.KernelIdeal.Body
open Idealize.ShloMosaic Idealize.ShloMosaic.TcCoe Idealize.ShloMosaic.ValueIdx

theorem lhs_coord0 (q : Fin 4096) (k : dot_S1x1024_S1024x4096_S1x4096_1_0_0_1_n_n.contr.Idx) :
    (dot_S1x1024_S1024x4096_S1x4096_1_0_0_1_n_n.lhsIdx (ix2 (0 : Fin 1) q) k 0).val = 0 := by
  unfold DotDims.lhsIdx
  rw [dif_neg (show ¬(0 : Fin S1x1024.rank) ∈ dot_S1x1024_S1024x4096_S1x4096_1_0_0_1_n_n.lhsBatch by decide), dif_pos (show (0 : Fin S1x1024.rank) ∈ dot_S1x1024_S1024x4096_S1x4096_1_0_0_1_n_n.lhsNonContracting by decide)]
  rfl

theorem rhs_coord1 (q : Fin 4096) (k : dot_S1x1024_S1024x4096_S1x4096_1_0_0_1_n_n.contr.Idx) :
    (dot_S1x1024_S1024x4096_S1x4096_1_0_0_1_n_n.rhsIdx (ix2 (0 : Fin 1) q) k 1).val = q.val := by
  unfold DotDims.rhsIdx
  rw [dif_neg (show ¬(1 : Fin S1024x4096.rank) ∈ dot_S1x1024_S1024x4096_S1x4096_1_0_0_1_n_n.rhsBatch by decide), dif_pos (show (1 : Fin S1024x4096.rank) ∈ dot_S1x1024_S1024x4096_S1x4096_1_0_0_1_n_n.rhsNonContracting by decide)]
  rfl

/-- The matrix product h · wᵀ into the zero accumulator, at column q: the sum over k of h[0,k] · w[q,k]. -/
theorem product_apply (h : FVec Ideal S1x1024 .f32) (w : FVec Ideal S4096x1024 .f32) (q : Fin 4096) :
    matmul dot_S1x1024_S1024x4096_S1x4096_1_0_0_1_n_n none h (transpose S1024x4096 [1, 0] w Gen.transposes_S4096x1024_p1_0_S1024x4096) (constant S1x4096 .f32 0x00000000#32)
        (ix2 (0 : Fin 1) q)
      = ∑ k : Fin 1024, h (ix2 (0 : Fin 1) k) * w (ix2 q k) := by
  simp only [matmul]
  rw [Ideal.matmul_constant_zero_apply, ← Equiv.sum_comp (contrEquiv1 dot_S1x1024_S1024x4096_S1x4096_1_0_0_1_n_n 1024 rfl rfl).symm]
  refine Finset.sum_congr rfl fun k _ => ?_
  have hk := contrEquiv1_symm_val dot_S1x1024_S1024x4096_S1x4096_1_0_0_1_n_n 1024 rfl rfl k
  have el : dot_S1x1024_S1024x4096_S1x4096_1_0_0_1_n_n.lhsIdx (ix2 (0 : Fin 1) q) ((contrEquiv1 dot_S1x1024_S1024x4096_S1x4096_1_0_0_1_n_n 1024 rfl rfl).symm k) = ix2 (0 : Fin 1) k :=
    funext fun a => Fin.ext (by
      match a with
      | ⟨0, _⟩ => exact lhs_coord0 _ _
      | ⟨1, _⟩ => exact (dot_S1x1024_S1024x4096_S1x4096_1_0_0_1_n_n.lhsIdx_val_of_single rfl _ _).trans hk)
  have er : dot_S1x1024_S1024x4096_S1x4096_1_0_0_1_n_n.rhsIdx (ix2 (0 : Fin 1) q) ((contrEquiv1 dot_S1x1024_S1024x4096_S1x4096_1_0_0_1_n_n 1024 rfl rfl).symm k) = ix2 k q :=
    funext fun a => Fin.ext (by
      match a with
      | ⟨0, _⟩ => exact (dot_S1x1024_S1024x4096_S1x4096_1_0_0_1_n_n.rhsIdx_val_of_single rfl _ _).trans hk
      | ⟨1, _⟩ => exact rhs_coord1 _ _)
  rw [el, er]
  exact congrArg (h (ix2 (0 : Fin 1) k) * ·) (transpose_apply [1, 0] w Gen.transposes_S4096x1024_p1_0_S1024x4096 (ix2 k q) (ix2 q k)
    (fun b => match b with
      | ⟨0, _⟩ => rfl
      | ⟨1, _⟩ => rfl))

/-- Column q of the stored row:  Σ_k h[0,k] · w[q,k] + b[q]. -/
theorem tileRow_apply (h : Vec Ideal S1x1024 .f32) (w : Vec Ideal S4096x1024 .f32) (b : Vec Ideal S4096 .f32) (q : Fin 4096) :
    tileRow (F := Ideal) h w b (ix2 (0 : Fin 1) q) = (∑ k : Fin 1024, h (ix2 (0 : Fin 1) k) * w (ix2 q k)) + b (ix1 q) := by
  have hz : (![0, 0] : Fin 2 → Nat) = fun _ => 0 := funext fun a => by fin_cases a <;> rfl
  have hz1 : (![0] : Fin 1 → Nat) = fun _ => 0 := funext fun a => by fin_cases a; rfl
  unfold tileRow
  rw [View.canon_unit_zero hz]
  simp only [View.ld_unit_zero (S := S1x1024) hz, View.ld_unit_zero (S := S4096x1024) hz, View.ld_unit_zero (S := S4096) hz1]
  unfold k0_pay1
  refine (addf_apply _ _ _).trans ?_
  refine congrArg₂ (· + ·) ?_ ?_
  · rw [shapeCast_self]
    exact product_apply h w q
  · exact shapeCast_a_1a_apply b Gen.shapeCasts_S4096_S1x4096 (0 : Fin 1) q

end Cert.KernelIdeal.TileRow

end
-- ==== Proof.LogitsIdeal.lean ====
/-
  The idealized kernel's run, and what its logits array ends holding.

  The pipeline walks thirteen tiles of 4096 vocabulary rows; 13 · 4096 = 53248 > 50257, so the last tile of W, of b and of
  the output overhangs its array by 2991 rows. A fetch fills the part of the staging buffer inside the array with the array's
  rows and leaves the rest at words nothing names; a write-back writes only the part inside the array. Over the extended
  reals column q of the row the body stores is  Σ_k h[0,k] · w[q,k] + b[q]  (TileRowIdeal): it reads row q of the W tile and
  entry q of the b tile only, so on the columns that are written back the unnamed words play no part, and the block written
  back at tile t is the block of ONE function of the arrays,
      logits[0, v] = Σ_k h[0,k] · W[v,k] + b[v].
  The thirteen clipped blocks cover the 50257 columns, so that function is what the array ends holding.
-/
import proofs.«152729_j16836271800433_1_alg».proof.Proof.TileRowIdeal
import Idealize.ShloMosaic.Lib.Pipeline.FrameSuffix
import Idealize.ShloMosaic.Lib.Pipeline.Kit
import Idealize.ShloMosaic.Lib.Pipeline.Value

set_option maxRecDepth 16384

noncomputable section

namespace Cert.KernelIdeal.Logits

open Cert.KernelIdeal Cert.KernelIdeal.Gen Cert.KernelIdeal.Body Cert.KernelIdeal.TileRow
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The specification -/

/-- One logit: the hidden row against row `v` of the weight matrix, plus the bias at `v`. -/
def logitAt (h : S1x1024.Idx → EReal) (W : S50257x1024.Idx → EReal) (b : S50257.Idx → EReal) (v : Fin 50257) : EReal :=
  (∑ k : Fin 1024, h (ix2 (0 : Fin 1) k) * W (ix2 v k)) + b (ix1 v)

/-- The logits array, index by index. -/
def logits (h : S1x1024.Idx → EReal) (W : S50257x1024.Idx → EReal) (b : S50257.Idx → EReal) : S1x50257.Idx → EReal :=
  fun i => logitAt h W b ⟨(i 1).val, (i 1).isLt⟩

variable (m : (ℓ : Loc nD τ sig) → Buf (Elt Ideal) ℓ) (ρ : Dev nD → PrngReg)

/-- The logits of the arrays as the region finds them on core `c`: the hidden row the host lines computed, W and b. -/
def regionLogits (c : Dev nD) : S1x50257.Idx → EReal :=
  logits (V m c main_v66) (V m c main_arg12) (V m c main_arg13)

/-! ## The index maps and the cuts, decided over the grid -/

theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val
    ∧ win0_1.xsize (grid0.coords t) (0 : Fin 2) = win0_3.xsize (grid0.coords t) (1 : Fin 2)
    ∧ win0_1.xsize (grid0.coords t) (1 : Fin 2) = 1024
    ∧ win0_2.xsize (grid0.coords t) (0 : Fin 1) = win0_3.xsize (grid0.coords t) (1 : Fin 2)
    ∧ win0_3.xsize (grid0.coords t) (0 : Fin 2) = 1
    ∧ win0_3.xsize (grid0.coords t) (1 : Fin 2) ≤ 4096
    ∧ t.val * 4096 + win0_3.xsize (grid0.coords t) (1 : Fin 2) ≤ 50257
    ∧ (win0_3.xsize (grid0.coords t) (1 : Fin 2) = 4096 ∨ t.val * 4096 + win0_3.xsize (grid0.coords t) (1 : Fin 2) = 50257)
    ∧ t.val < 13 :=
  (by decide +kernel : ∀ t : Fin grid0.N, _)

/-- A filled tile read where the fetch lands: the fetched block there. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-! ## The proof data -/

/-- On core `c`: the arrays as the region finds them; after the body at tile `t` the hidden row's buffer at its block, the
    W and b buffers at their fetched blocks (filled out, past the array's end, with zero — nothing reads it), the output's
    at the block of `regionLogits` (filled out likewise); the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (regionLogits m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal)) (iblk m c 2 t) := by dsimp only [dats]
theorem after0_3 (c : Dev nD) (t : Fin cfg0.N) :
    (dats m 0 c).after 3 t = win0_3.fill (grid0.coords t) (fun _ => (0 : EReal)) ((win0_3.blk t).view.read (Elt Ideal) (regionLogits m c)) := by
  dsimp only [dats]

/-- The hidden row's buffer holds its block at every tile (fetched once, never moved). -/
theorem before0_0 (c : Dev nD) (t : Fin cfg0.N) (d) : (dats m 0 c).before 0 t d = iblk m c 0 t :=
  before0_0_of m (dats m 0 c) (A_eq m c 0) (after0_0 m c) t d
/-- W's and b's buffers are fetched at every tile: the block where the fetch lands, `d` past the array's end. -/
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq m c 1]; try rfl
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq m c 2]; try rfl
/-- The output's buffer is written back at every tile, so the body finds it at anything. -/
theorem before0_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The tiles read where the fetches land -/

set_option maxHeartbeats 1000000 in
/-- The hidden row's block is the whole row. -/
theorem hiddenBlock_apply (c : Dev nD) (t : Fin cfg0.N) (k : Fin 1024) :
    iblk m c 0 t (ix2 (0 : Fin 1) k) = V m c main_v66 (ix2 (0 : Fin 1) k) := by
  obtain ⟨e00, e01, -⟩ := grid_facts t
  have h0 : ((cfg0.win 0).blk t).view.emb (ix2 (0 : Fin 1) k) = ix2 (0 : Fin 1) k := by
    funext a; apply Fin.ext
    match a with
    | ⟨0, _⟩ => show win0_0.index t (0 : Fin 2) * 1 + 1 * 0 = 0; omega
    | ⟨1, _⟩ => show win0_0.index t (1 : Fin 2) * 1024 + 1 * k.val = k.val; omega
  show V m c main_v66 (((cfg0.win 0).blk t).view.emb (ix2 (0 : Fin 1) k)) = V m c main_v66 (ix2 (0 : Fin 1) k)
  rw [h0]

set_option maxHeartbeats 1000000 in
/-- Row `q` of the fetched W tile, for `q` inside the array, is row `4096 t + q` of W — whatever the buffer held before. -/
theorem wTile_apply (c : Dev nD) (t : Fin cfg0.N) (d1 : S4096x1024.Idx → EReal) (q : Fin 4096) (k : Fin 1024)
    (hq : q.val < win0_3.xsize (grid0.coords t) (1 : Fin 2)) (hv : t.val * 4096 + q.val < 50257) :
    win0_1.fill (grid0.coords t) d1 (iblk m c 1 t) (ix2 q k) = V m c main_arg12 (ix2 (⟨t.val * 4096 + q.val, hv⟩ : Fin 50257) k) := by
  obtain ⟨e00, e01, e10, e11, e20, e30, e31, x10, x11, x20, x30, x31, x32, x33, ht⟩ := grid_facts t
  have hW : ∀ a, ((ix2 q k : S4096x1024.Idx) a).val < win0_1.xsize (grid0.coords t) a := fun a => by
    match a with
    | ⟨0, _⟩ => show q.val < win0_1.xsize (grid0.coords t) (0 : Fin 2); rw [x10]; exact hq
    | ⟨1, _⟩ => show k.val < win0_1.xsize (grid0.coords t) (1 : Fin 2); rw [x11]; exact k.isLt
  rw [fill_apply_of_lt win0_1 (grid0.coords t) d1 (iblk m c 1 t) (ix2 q k) hW]
  have h1 : ((cfg0.win 1).blk t).view.emb (fun a => ⟨((ix2 q k : S4096x1024.Idx) a).val, hW a⟩)
      = ix2 (⟨t.val * 4096 + q.val, hv⟩ : Fin 50257) k := by
    funext a; apply Fin.ext
    match a with
    | ⟨0, _⟩ => show win0_1.index t (0 : Fin 2) * 4096 + 1 * q.val = t.val * 4096 + q.val; omega
    | ⟨1, _⟩ => show win0_1.index t (1 : Fin 2) * 1024 + 1 * k.val = k.val; omega
  show V m c main_arg12 (((cfg0.win 1).blk t).view.emb (fun a => ⟨((ix2 q k : S4096x1024.Idx) a).val, hW a⟩))
    = V m c main_arg12 (ix2 (⟨t.val * 4096 + q.val, hv⟩ : Fin 50257) k)
  rw [h1]

set_option maxHeartbeats 1000000 in
/-- Entry `q` of the fetched b tile, for `q` inside the array, is entry `4096 t + q` of b. -/
theorem bTile_apply (c : Dev nD) (t : Fin cfg0.N) (d2 : S4096.Idx → EReal) (q : Fin 4096)
    (hq : q.val < win0_3.xsize (grid0.coords t) (1 : Fin 2)) (hv : t.val * 4096 + q.val < 50257) :
    win0_2.fill (grid0.coords t) d2 (iblk m c 2 t) (ix1 q) = V m c main_arg13 (ix1 (⟨t.val * 4096 + q.val, hv⟩ : Fin 50257)) := by
  obtain ⟨e00, e01, e10, e11, e20, e30, e31, x10, x11, x20, x30, x31, x32, x33, ht⟩ := grid_facts t
  have hB : ∀ a, ((ix1 q : S4096.Idx) a).val < win0_2.xsize (grid0.coords t) a := fun a => by
    match a with
    | ⟨0, _⟩ => show q.val < win0_2.xsize (grid0.coords t) (0 : Fin 1); rw [x20]; exact hq
  rw [fill_apply_of_lt win0_2 (grid0.coords t) d2 (iblk m c 2 t) (ix1 q) hB]
  have h2 : ((cfg0.win 2).blk t).view.emb (fun a => ⟨((ix1 q : S4096.Idx) a).val, hB a⟩)
      = ix1 (⟨t.val * 4096 + q.val, hv⟩ : Fin 50257) := by
    funext a; apply Fin.ext
    match a with
    | ⟨0, _⟩ => show win0_2.index t (0 : Fin 1) * 4096 + 1 * q.val = t.val * 4096 + q.val; omega
  show V m c main_arg13 (((cfg0.win 2).blk t).view.emb (fun a => ⟨((ix1 q : S4096.Idx) a).val, hB a⟩))
    = V m c main_arg13 (ix1 (⟨t.val * 4096 + q.val, hv⟩ : Fin 50257))
  rw [h2]

/-! ## The columns written back are the logits' -/

set_option maxHeartbeats 1000000 in
/-- On the columns of tile `t` inside the array, the row the body stores — whatever fills the W and b buffers past the
    array's end — is the block of `regionLogits`. -/
theorem cut_tileRow (c : Dev nD) (t : Fin cfg0.N) (d1 : S4096x1024.Idx → EReal) (d2 : S4096.Idx → EReal) :
    win0_3.cut (grid0.coords t) (tileRow (F := Ideal) (iblk m c 0 t) (win0_1.fill (grid0.coords t) d1 (iblk m c 1 t))
        (win0_2.fill (grid0.coords t) d2 (iblk m c 2 t)))
      = (win0_3.blk t).view.read (Elt Ideal) (regionLogits m c) := by
  obtain ⟨e00, e01, e10, e11, e20, e30, e31, x10, x11, x20, x30, x31, x32, x33, ht⟩ := grid_facts t
  funext j
  have hj0 : (j 0).val < win0_3.xsize (grid0.coords t) (0 : Fin 2) := (j 0).isLt
  have hj1 : (j 1).val < win0_3.xsize (grid0.coords t) (1 : Fin 2) := (j 1).isLt
  have hq : (j 1).val < 4096 := by omega
  have hv : t.val * 4096 + (j 1).val < 50257 := by omega
  have hx : win0_3.xinj (grid0.coords t) j = ix2 (0 : Fin 1) (⟨(j 1).val, hq⟩ : Fin 4096) := by
    funext a; apply Fin.ext
    match a with
    | ⟨0, _⟩ => show (j 0).val = 0; rw [x30] at hj0; omega
    | ⟨1, _⟩ => rfl
  have hi : (win0_3.blk t).view.emb j = ix2 (0 : Fin 1) (⟨t.val * 4096 + (j 1).val, hv⟩ : Fin 50257) := by
    funext a; apply Fin.ext
    match a with
    | ⟨0, _⟩ => show win0_3.index t (0 : Fin 2) * 1 + 1 * (j 0).val = 0; rw [x30] at hj0; omega
    | ⟨1, _⟩ => show win0_3.index t (1 : Fin 2) * 4096 + 1 * (j 1).val = t.val * 4096 + (j 1).val; omega
  show tileRow (F := Ideal) (iblk m c 0 t) (win0_1.fill (grid0.coords t) d1 (iblk m c 1 t))
      (win0_2.fill (grid0.coords t) d2 (iblk m c 2 t)) (win0_3.xinj (grid0.coords t) j)
    = regionLogits m c ((win0_3.blk t).view.emb j)
  rw [hx, hi]
  refine (tileRow_apply (iblk m c 0 t) (win0_1.fill (grid0.coords t) d1 (iblk m c 1 t))
    (win0_2.fill (grid0.coords t) d2 (iblk m c 2 t)) ⟨(j 1).val, hq⟩).trans ?_
  show _ = logitAt (V m c main_v66) (V m c main_arg12) (V m c main_arg13) ⟨t.val * 4096 + (j 1).val, hv⟩
  unfold logitAt
  refine congrArg₂ (· + ·) (Finset.sum_congr rfl fun k _ => congrArg₂ (· * ·) ?_ ?_) ?_
  · exact hiddenBlock_apply m c t k
  · exact wTile_apply m c t d1 ⟨(j 1).val, hq⟩ k hj1 hv
  · exact bTile_apply m c t d2 ⟨(j 1).val, hq⟩ hj1 hv

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns: the hidden row's buffer exactly; the three clipped windows' buffers stated where their transfers
    move them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, Window.cut_fill, Window.cut_fill, Window.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (tileRow (F := Ideal) (iblk m c 0 t) (win0_1.fill (grid0.coords t) d1 (iblk m c 1 t)) (win0_2.fill (grid0.coords t) d2 (iblk m c 2 t)))
  rw [← cut_tileRow m c t d1 d2, Window.fill_cut]
  iexact H3

theorem body_obligation (c : Dev nD) : BodyObligationLoose (dats m 0 c) (defs₀ (F := Ideal)) Variants.none () Set.univ := fun t => by
  rw [bigSep_W0, bigSep_W0]
  exact sound_body m c t

/-! ## The run, the frame, the logits array -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- What tile `t` writes back is the block of `regionLogits`. -/
theorem flushed_eq (c : Dev nD) (t : Fin cfg0.N) :
    (dats m 0 c).flushed 3 t = ((cfg0.win 3).blk t).view.read (Elt Ideal) (regionLogits m c) := by
  show (cfg0.win 3).cut (grid0.coords t) ((dats m 0 c).after 3 t) = _
  rw [after0_3]
  exact Window.cut_fill _ _ _ _

theorem mem_blk (t : Fin cfg0.N) (i : S1x50257.Idx) :
    i ∈ ((cfg0.win 3).blk t).view.set ↔ ∀ a : Fin 2, win0_3.index t a * S1x4096.size a ≤ (i a).val
      ∧ (i a).val < win0_3.index t a * S1x4096.size a + win0_3.xsize (grid0.coords t) a := by
  show i ∈ ((View.whole main_v67).slice (win0_3.rect t)).set ↔ _
  rw [View.set_slice_whole, Rect.mem_set_unit]
  exact Iff.rfl

/-- Column `v` lies in tile `v / 4096`. -/
theorem tile_of (q : Fin 13) : ∃ t : Fin cfg0.N, t.val = q.val :=
  (by decide +kernel : ∀ q : Fin 13, ∃ t : Fin grid0.N, t.val = q.val) q

theorem covered (i : S1x50257.Idx) : ∃ t : Fin cfg0.N, (cfg0.win 3).flush t = true ∧ i ∈ ((cfg0.win 3).blk t).view.set := by
  have hi0 : (i 0).val < 1 := (i 0).isLt
  have hi1 : (i 1).val < 50257 := (i 1).isLt
  obtain ⟨t, ht⟩ := tile_of ⟨(i 1).val / 4096, by omega⟩
  have ht' : t.val = (i 1).val / 4096 := ht
  obtain ⟨e00, e01, e10, e11, e20, e30, e31, x10, x11, x20, x30, x31, x32, x33, _⟩ := grid_facts t
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + win0_3.xsize (grid0.coords t) (0 : Fin 2); omega
  | ⟨1, _⟩ => show win0_3.index t (1 : Fin 2) * 4096 ≤ (i 1).val ∧ (i 1).val < win0_3.index t (1 : Fin 2) * 4096 + win0_3.xsize (grid0.coords t) (1 : Fin 2); omega

/-- The logits array after the run. -/
theorem final_logits (c : Dev nD) : (dats m 0 c).arrAt 3 cfg0.N = regionLogits m c :=
  (dats m 0 c).arrAt_eq_of_cover 3 (regionLogits m c) (fun t _ => flushed_eq m c t) (covered)

end Cert.KernelIdeal.Logits

end
-- ==== Proof.HostTailIdeal.lean ====
/-
  The host line after the region, at the ideal values.

  After the region the kernel re-lays the hidden row as [1, 1, 1024]; the pipeline only read that row, so the line finds it as
  the region did. The attention weights are neither an array of the pipeline nor written by that line.
-/
import proofs.«152729_j16836271800433_1_alg».proof.Proof.LogitsIdeal
import Idealize.ShloMosaic.Lib.StableHlo.Run

set_option maxRecDepth 16384

noncomputable section

namespace Cert.KernelIdeal.HostTail

open Cert.KernelIdeal Cert.KernelIdeal.Gen Cert.KernelIdeal.Logits
open Idealize.ShloMosaic Idealize.ShloMosaic.TcCoe Idealize.ShloMosaic.Tactic Idealize.ShloMosaic.ValueIdx
open Idealize.SL.Sem Idealize.ShloMosaic.StableHlo
open Idealize.ShloMosaic.Pipeline (Dat)

variable (m : (ℓ : Loc nD τ sig) → Buf (Elt Ideal) ℓ)

/-- The one line after the region re-lays the hidden row, which the pipeline only read. -/
theorem tail_hidden (c : Dev nD) :
    Pipeline.afterTail₀ cfgs (dats m) 0 (V0 m) [hostOps1] c main_v68
      = broadcastInDim S1x1x1024 ![1, 2] bcast_S1x1024_S1x1x1024_1_2 (V m c main_v66) := by
  unfold Pipeline.afterTail₀
  show StableHlo.after hostOps1 _ (Proc.devRef .tc main_v68) = _
  after_results
  have e : Pipeline.withArrays (cfgs 0).spec c (V0 m c) (fun w => (dats m 0 c).arrAt w (cfgs 0).N) (Proc.devRef .tc main_v66)
      = V m c main_v66 :=
    (Pipeline.withArrays_arr spec0 launch0.win.arr_inj c _ _ 0).trans (((dats m 0 c).arrAt_in 0 rfl _).trans (A_eq m c 0))
  rw [e]

/-- It does not write the attention weights, and they are no array of the pipeline. -/
theorem tail_attn (c : Dev nD) :
    Pipeline.afterTail₀ cfgs (dats m) 0 (V0 m) [hostOps1] c main_v23 = V m c main_v23 := by
  unfold Pipeline.afterTail₀
  rw [StableHlo.after_of_forall_not_mem (b := Proc.devRef .tc main_v23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v23 (by exact (by decide : ∀ w, Pipeline.arrRef spec0 w ≠ main_v23))]

end Cert.KernelIdeal.HostTail

end
-- ==== Proof.RefLine.lean ====
/-
  The reference's @main as a straight line of host operations, and its run.

  @main is eighty-four host operations in order. They are listed here in the four stretches the comparison with the kernel uses:
  the attention and combine lines up to the pre-activation x (35), relu (3), the GRU step up to the new hidden row (41), and the
  projection h · Wᵀ + b with the re-laid hidden row (5). A straight line of host operations terminates without fault and leaves
  each buffer at the fold of the operations' results over its launch contents; no operation writes an argument array.
-/
import proofs.«152729_j16836271800433_1_alg».proof.Proof.Gen.ReferenceIdeal
import Idealize.ShloMosaic.Lib.StableHlo.Run

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Up to the combine's pre-activation. -/
abbrev opsA : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x64 [1, 0] · transposes_S64x2048_S2048x64_1_0) : (⟨S64x2048, .f32⟩ : BufTy).Contents (Elt F) → (⟨S2048x64, .f32⟩ : BufTy).Contents (Elt F)),
    binary main_v8 main_v9 main_v10 ((fun l r => Host.dotGeneral dot_S1x2048_S2048x64_S1x64_1_0_0_1_n_n none l r) : (⟨S1x2048, .f32⟩ : BufTy).Contents (Elt F) → (⟨S2048x64, .f32⟩ : BufTy).Contents (Elt F) → (⟨S1x64, .f32⟩ : BufTy).Contents (Elt F)),
    unary main_arg5 main_v11 (broadcastInDim S1x64 ![1] bcast_S64_S1x64_1 : (⟨S64, .f32⟩ : BufTy).Contents (Elt F) → (⟨S1x64, .f32⟩ : BufTy).Contents (Elt F)),
    binary main_v10 main_v11 main_v12 (addf : (⟨S1x64, .f32⟩ : BufTy).Contents (Elt F) → (⟨S1x64, .f32⟩ : BufTy).Contents (Elt F) → (⟨S1x64, .f32⟩ : BufTy).Contents (Elt F)),
    nullary main_cst (constant S_ .f32 0xFF800000#32),
    binary main_v12 main_cst main_v13 ((fun x v => Host.reduce FloatOps.maximumf x v reducesTo_S1x64_S1_d1 h_S_) : (⟨S1x64, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x64 ![0, 1] bcast_S1x1_S1x64_0_1 : (⟨S1x1, .f32⟩ : BufTy).Contents (Elt F) → (⟨S1x64, .f32⟩ : BufTy).Contents (Elt F)),
    binary main_v12 main_v17 main_v18 (subf : (⟨S1x64, .f32⟩ : BufTy).Contents (Elt F) → (⟨S1x64, .f32⟩ : BufTy).Contents (Elt F) → (⟨S1x64, .f32⟩ : BufTy).Contents (Elt F)),
    unary main_v18 main_v19 (Host.exp : (⟨S1x64, .f32⟩ : BufTy).Contents (Elt F) → (⟨S1x64, .f32⟩ : BufTy).Contents (Elt F)),
    nullary main_cst_2 (constant S_ .f32 0x00000000#32),
    binary main_v19 main_cst_2 main_v20 ((fun x v => Host.reduceAdd x v reducesTo_S1x64_S1_d1 h_S_) : (⟨S1x64, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x64 ![0, 1] bcast_S1x1_S1x64_0_1 : (⟨S1x1, .f32⟩ : BufTy).Contents (Elt F) → (⟨S1x64, .f32⟩ : BufTy).Contents (Elt F)),
    binary main_v19 main_v22 main_v23 (Host.divf : (⟨S1x64, .f32⟩ : BufTy).Contents (Elt F) → (⟨S1x64, .f32⟩ : BufTy).Contents (Elt F) → (⟨S1x64, .f32⟩ : BufTy).Contents (Elt F)),
    binary main_v23 main_arg2 main_v24 ((fun l r => Host.dotGeneral dot_S1x64_S64x1024_S1x1024_1_0_0_1_n_n none l r) : (⟨S1x64, .f32⟩ : BufTy).Contents (Elt F) → (⟨S64x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)) ]

/-- relu. -/
abbrev opsB : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf ]

/-- The GRU step, up to the new hidden row. -/
abbrev opsC : List (HloOp τ sig (Elt F)) :=
  [ unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)) ]

/-- The projection and the re-laid hidden row. -/
abbrev opsD : List (HloOp τ sig (Elt F)) :=
  [ unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    unary main_v66 main_v71 (broadcastInDim S1x1x1024 ![1, 2] bcast_S1x1024_S1x1x1024_1_2 : (⟨S1x1024, .f32⟩ : BufTy).Contents (Elt F) → (⟨S1x1x1024, .f32⟩ : BufTy).Contents (Elt F)) ]

/-- @main's eighty-four operations, in order. -/
abbrev ops : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x1024_S1x1_S1x1024_1_0_n_n_0_1_11024 x i) : (⟨S50257x1024, .f32⟩ : BufTy).Contents (Elt F) → (⟨S1x1, .i32⟩ : BufTy).Contents (Elt F) → (⟨S1x1024, .f32⟩ : BufTy).Contents (Elt F)),
    reshape main_arg1 main_v7 rfl shapeCasts_S1x1x1024_S1x1024,
    binary main_v6 main_v7 main_v8 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg4 main_v9 ((transpose S2048x64 [1, 0] · transposes_S64x2048_S2048x64_1_0) : (⟨S64x2048, .f32⟩ : BufTy).Contents (Elt F) → (⟨S2048x64, .f32⟩ : BufTy).Contents (Elt F)),
    binary main_v8 main_v9 main_v10 ((fun l r => Host.dotGeneral dot_S1x2048_S2048x64_S1x64_1_0_0_1_n_n none l r) : (⟨S1x2048, .f32⟩ : BufTy).Contents (Elt F) → (⟨S2048x64, .f32⟩ : BufTy).Contents (Elt F) → (⟨S1x64, .f32⟩ : BufTy).Contents (Elt F)),
    unary main_arg5 main_v11 (broadcastInDim S1x64 ![1] bcast_S64_S1x64_1 : (⟨S64, .f32⟩ : BufTy).Contents (Elt F) → (⟨S1x64, .f32⟩ : BufTy).Contents (Elt F)),
    binary main_v10 main_v11 main_v12 (addf : (⟨S1x64, .f32⟩ : BufTy).Contents (Elt F) → (⟨S1x64, .f32⟩ : BufTy).Contents (Elt F) → (⟨S1x64, .f32⟩ : BufTy).Contents (Elt F)),
    nullary main_cst (constant S_ .f32 0xFF800000#32),
    binary main_v12 main_cst main_v13 ((fun x v => Host.reduce FloatOps.maximumf x v reducesTo_S1x64_S1_d1 h_S_) : (⟨S1x64, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v14 (broadcastInDim S1 ![] bcast_S_S1 : (⟨S_, .f32⟩ : BufTy).Contents (Elt F) → (⟨S1, .f32⟩ : BufTy).Contents (Elt F)),
    binary main_v14 main_v13 main_v15 (maximumf : (⟨S1, .f32⟩ : BufTy).Contents (Elt F) → (⟨S1, .f32⟩ : BufTy).Contents (Elt F) → (⟨S1, .f32⟩ : BufTy).Contents (Elt F)),
    unary main_v15 main_v16 (broadcastInDim S1x1 ![0] bcast_S1_S1x1_0 : (⟨S1, .f32⟩ : BufTy).Contents (Elt F) → (⟨S1x1, .f32⟩ : BufTy).Contents (Elt F)),
    unary main_v16 main_v17 (broadcastInDim S1x64 ![0, 1] bcast_S1x1_S1x64_0_1 : (⟨S1x1, .f32⟩ : BufTy).Contents (Elt F) → (⟨S1x64, .f32⟩ : BufTy).Contents (Elt F)),
    binary main_v12 main_v17 main_v18 (subf : (⟨S1x64, .f32⟩ : BufTy).Contents (Elt F) → (⟨S1x64, .f32⟩ : BufTy).Contents (Elt F) → (⟨S1x64, .f32⟩ : BufTy).Contents (Elt F)),
    unary main_v18 main_v19 (Host.exp : (⟨S1x64, .f32⟩ : BufTy).Contents (Elt F) → (⟨S1x64, .f32⟩ : BufTy).Contents (Elt F)),
    nullary main_cst_2 (constant S_ .f32 0x00000000#32),
    binary main_v19 main_cst_2 main_v20 ((fun x v => Host.reduceAdd x v reducesTo_S1x64_S1_d1 h_S_) : (⟨S1x64, .f32⟩ : BufTy).Contents (Elt F) → (⟨S_, .f32⟩ : BufTy).Contents (Elt F) → (⟨S1, .f32⟩ : BufTy).Contents (Elt F)),
    unary main_v20 main_v21 (broadcastInDim S1x1 ![0] bcast_S1_S1x1_0 : (⟨S1, .f32⟩ : BufTy).Contents (Elt F) → (⟨S1x1, .f32⟩ : BufTy).Contents (Elt F)),
    unary main_v21 main_v22 (broadcastInDim S1x64 ![0, 1] bcast_S1x1_S1x64_0_1 : (⟨S1x1, .f32⟩ : BufTy).Contents (Elt F) → (⟨S1x64, .f32⟩ : BufTy).Contents (Elt F)),
    binary main_v19 main_v22 main_v23 (Host.divf : (⟨S1x64, .f32⟩ : BufTy).Contents (Elt F) → (⟨S1x64, .f32⟩ : BufTy).Contents (Elt F) → (⟨S1x64, .f32⟩ : BufTy).Contents (Elt F)),
    binary main_v23 main_arg2 main_v24 ((fun l r => Host.dotGeneral dot_S1x64_S64x1024_S1x1024_1_0_0_1_n_n none l r) : (⟨S1x64, .f32⟩ : BufTy).Contents (Elt F) → (⟨S64x1024, .f32⟩ : BufTy).Contents (Elt F) → (⟨S1x1024, .f32⟩ : BufTy).Contents (Elt F)),
    binary main_v6 main_v24 main_v25 ((fun a b => concatenate S1x2048 1 [⟨S1x1024, a⟩, ⟨S1x1024, b⟩] concatenates_S1x1024_S1x1024_S1x2048_d1) : (⟨S1x1024, .f32⟩ : BufTy).Contents (Elt F) → (⟨S1x1024, .f32⟩ : BufTy).Contents (Elt F) → (⟨S1x2048, .f32⟩ : BufTy).Contents (Elt F)),
    unary main_arg6 main_v26 ((transpose S2048x1024 [1, 0] · transposes_S1024x2048_S2048x1024_1_0) : (⟨S1024x2048, .f32⟩ : BufTy).Contents (Elt F) → (⟨S2048x1024, .f32⟩ : BufTy).Contents (Elt F)),
    binary main_v25 main_v26 main_v27 ((fun l r => Host.dotGeneral dot_S1x2048_S2048x1024_S1x1024_1_0_0_1_n_n none l r) : (⟨S1x2048, .f32⟩ : BufTy).Contents (Elt F) → (⟨S2048x1024, .f32⟩ : BufTy).Contents (Elt F) → (⟨S1x1024, .f32⟩ : BufTy).Contents (Elt F)),
    unary main_arg7 main_v28 (broadcastInDim S1x1024 ![1] bcast_S1024_S1x1024_1 : (⟨S1024, .f32⟩ : BufTy).Contents (Elt F) → (⟨S1x1024, .f32⟩ : BufTy).Contents (Elt F)),
    binary main_v27 main_v28 main_v29 (addf : (⟨S1x1024, .f32⟩ : BufTy).Contents (Elt F) → (⟨S1x1024, .f32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v29) (TRef.of (T := ⟨S1x1024, .f32⟩) main_call0_v0) (TRef.of (T := ⟨S1x1024, .f32⟩) main_v30) maximumf,
    unary main_arg8 main_v31 ((transpose S1024x3072 [1, 0] · transposes_S3072x1024_S1024x3072_1_0) : (⟨S3072x1024, .f32⟩ : BufTy).Contents (Elt F) → (⟨S1024x3072, .f32⟩ : BufTy).Contents (Elt F)),
    binary main_v30 main_v31 main_v32 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg10 main_v33 (broadcastInDim S1x3072 ![1] bcast_S3072_S1x3072_1 : (⟨S3072, .f32⟩ : BufTy).Contents (Elt F) → (⟨S1x3072, .f32⟩ : BufTy).Contents (Elt F)),
    binary main_v32 main_v33 main_v34 (addf : (⟨S1x3072, .f32⟩ : BufTy).Contents (Elt F) → (⟨S1x3072, .f32⟩ : BufTy).Contents (Elt F) → (⟨S1x3072, .f32⟩ : BufTy).Contents (Elt F)),
    unary main_arg9 main_v35 ((transpose S1024x3072 [1, 0] · transposes_S3072x1024_S1024x3072_1_0) : (⟨S3072x1024, .f32⟩ : BufTy).Contents (Elt F) → (⟨S1024x3072, .f32⟩ : BufTy).Contents (Elt F)),
    binary main_v7 main_v35 main_v36 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg11 main_v37 (broadcastInDim S1x3072 ![1] bcast_S3072_S1x3072_1 : (⟨S3072, .f32⟩ : BufTy).Contents (Elt F) → (⟨S1x3072, .f32⟩ : BufTy).Contents (Elt F)),
    binary main_v36 main_v37 main_v38 (addf : (⟨S1x3072, .f32⟩ : BufTy).Contents (Elt F) → (⟨S1x3072, .f32⟩ : BufTy).Contents (Elt F) → (⟨S1x3072, .f32⟩ : BufTy).Contents (Elt F)),
    unary main_v34 main_v39 ((extractStridedSlice S1x1024 ![0, 0] · slices_S1x3072_S1x1024_0_0) : (⟨S1x3072, .f32⟩ : BufTy).Contents (Elt F) → (⟨S1x1024, .f32⟩ : BufTy).Contents (Elt F)),
    unary main_v34 main_v40 ((extractStridedSlice S1x1024 ![0, 1024] · slices_S1x3072_S1x1024_0_1024) : (⟨S1x3072, .f32⟩ : BufTy).Contents (Elt F) → (⟨S1x1024, .f32⟩ : BufTy).Contents (Elt F)),
    unary main_v34 main_v41 ((extractStridedSlice S1x1024 ![0, 2048] · slices_S1x3072_S1x1024_0_2048) : (⟨S1x3072, .f32⟩ : BufTy).Contents (Elt F) → (⟨S1x1024, .f32⟩ : BufTy).Contents (Elt F)),
    unary main_v38 main_v42 ((extractStridedSlice S1x1024 ![0, 0] · slices_S1x3072_S1x1024_0_0) : (⟨S1x3072, .f32⟩ : BufTy).Contents (Elt F) → (⟨S1x1024, .f32⟩ : BufTy).Contents (Elt F)),
    unary main_v38 main_v43 ((extractStridedSlice S1x1024 ![0, 1024] · slices_S1x3072_S1x1024_0_1024) : (⟨S1x3072, .f32⟩ : BufTy).Contents (Elt F) → (⟨S1x1024, .f32⟩ : BufTy).Contents (Elt F)),
    unary main_v38 main_v44 ((extractStridedSlice S1x1024 ![0, 2048] · slices_S1x3072_S1x1024_0_2048) : (⟨S1x3072, .f32⟩ : BufTy).Contents (Elt F) → (⟨S1x1024, .f32⟩ : BufTy).Contents (Elt F)),
    binary main_v39 main_v42 main_v45 (addf : (⟨S1x1024, .f32⟩ : BufTy).Contents (Elt F) → (⟨S1x1024, .f32⟩ : BufTy).Contents (Elt F) → (⟨S1x1024, .f32⟩ : BufTy).Contents (Elt F)),
    unary main_v45 main_v46 (Host.negf : (⟨S1x1024, .f32⟩ : BufTy).Contents (Elt F) → (⟨S1x1024, .f32⟩ : BufTy).Contents (Elt F)),
    unary main_v46 main_v47 (Host.exp : (⟨S1x1024, .f32⟩ : BufTy).Contents (Elt F) → (⟨S1x1024, .f32⟩ : BufTy).Contents (Elt F)),
    nullary main_cst_3 (constant S_ .f32 0x3F800000#32),
    unary main_cst_3 main_v48 (broadcastInDim S1x1024 ![] bcast_S_S1x1024 : (⟨S_, .f32⟩ : BufTy).Contents (Elt F) → (⟨S1x1024, .f32⟩ : BufTy).Contents (Elt F)),
    binary main_v48 main_v47 main_v49 (addf : (⟨S1x1024, .f32⟩ : BufTy).Contents (Elt F) → (⟨S1x1024, .f32⟩ : BufTy).Contents (Elt F) → (⟨S1x1024, .f32⟩ : BufTy).Contents (Elt F)),
    nullary main_cst_4 (constant S_ .f32 0x3F800000#32),
    unary main_cst_4 main_v50 (broadcastInDim S1x1024 ![] bcast_S_S1x1024 : (⟨S_, .f32⟩ : BufTy).Contents (Elt F) → (⟨S1x1024, .f32⟩ : BufTy).Contents (Elt F)),
    binary main_v50 main_v49 main_v51 (Host.divf : (⟨S1x1024, .f32⟩ : BufTy).Contents (Elt F) → (⟨S1x1024, .f32⟩ : BufTy).Contents (Elt F) → (⟨S1x1024, .f32⟩ : BufTy).Contents (Elt F)),
    binary main_v40 main_v43 main_v52 (addf : (⟨S1x1024, .f32⟩ : BufTy).Contents (Elt F) → (⟨S1x1024, .f32⟩ : BufTy).Contents (Elt F) → (⟨S1x1024, .f32⟩ : BufTy).Contents (Elt F)),
    unary main_v52 main_v53 (Host.negf : (⟨S1x1024, .f32⟩ : BufTy).Contents (Elt F) → (⟨S1x1024, .f32⟩ : BufTy).Contents (Elt F)),
    unary main_v53 main_v54 (Host.exp : (⟨S1x1024, .f32⟩ : BufTy).Contents (Elt F) → (⟨S1x1024, .f32⟩ : BufTy).Contents (Elt F)),
    nullary main_cst_5 (constant S_ .f32 0x3F800000#32),
    unary main_cst_5 main_v55 (broadcastInDim S1x1024 ![] bcast_S_S1x1024 : (⟨S_, .f32⟩ : BufTy).Contents (Elt F) → (⟨S1x1024, .f32⟩ : BufTy).Contents (Elt F)),
    binary main_v55 main_v54 main_v56 (addf : (⟨S1x1024, .f32⟩ : BufTy).Contents (Elt F) → (⟨S1x1024, .f32⟩ : BufTy).Contents (Elt F) → (⟨S1x1024, .f32⟩ : BufTy).Contents (Elt F)),
    nullary main_cst_6 (constant S_ .f32 0x3F800000#32),
    unary main_cst_6 main_v57 (broadcastInDim S1x1024 ![] bcast_S_S1x1024 : (⟨S_, .f32⟩ : BufTy).Contents (Elt F) → (⟨S1x1024, .f32⟩ : BufTy).Contents (Elt F)),
    binary main_v57 main_v56 main_v58 (Host.divf : (⟨S1x1024, .f32⟩ : BufTy).Contents (Elt F) → (⟨S1x1024, .f32⟩ : BufTy).Contents (Elt F) → (⟨S1x1024, .f32⟩ : BufTy).Contents (Elt F)),
    binary main_v51 main_v44 main_v59 (mulf : (⟨S1x1024, .f32⟩ : BufTy).Contents (Elt F) → (⟨S1x1024, .f32⟩ : BufTy).Contents (Elt F) → (⟨S1x1024, .f32⟩ : BufTy).Contents (Elt F)),
    binary main_v41 main_v59 main_v60 (addf : (⟨S1x1024, .f32⟩ : BufTy).Contents (Elt F) → (⟨S1x1024, .f32⟩ : BufTy).Contents (Elt F) → (⟨S1x1024, .f32⟩ : BufTy).Contents (Elt F)),
    unary main_v60 main_v61 (Host.tanh : (⟨S1x1024, .f32⟩ : BufTy).Contents (Elt F) → (⟨S1x1024, .f32⟩ : BufTy).Contents (Elt F)),
    nullary main_cst_7 (constant S_ .f32 0x3F800000#32),
    unary main_cst_7 main_v62 (broadcastInDim S1x1024 ![] bcast_S_S1x1024 : (⟨S_, .f32⟩ : BufTy).Contents (Elt F) → (⟨S1x1024, .f32⟩ : BufTy).Contents (Elt F)),
    binary main_v62 main_v58 main_v63 (subf : (⟨S1x1024, .f32⟩ : BufTy).Contents (Elt F) → (⟨S1x1024, .f32⟩ : BufTy).Contents (Elt F) → (⟨S1x1024, .f32⟩ : BufTy).Contents (Elt F)),
    binary main_v63 main_v61 main_v64 (mulf : (⟨S1x1024, .f32⟩ : BufTy).Contents (Elt F) → (⟨S1x1024, .f32⟩ : BufTy).Contents (Elt F) → (⟨S1x1024, .f32⟩ : BufTy).Contents (Elt F)),
    binary main_v58 main_v7 main_v65 (mulf : (⟨S1x1024, .f32⟩ : BufTy).Contents (Elt F) → (⟨S1x1024, .f32⟩ : BufTy).Contents (Elt F) → (⟨S1x1024, .f32⟩ : BufTy).Contents (Elt F)),
    binary main_v64 main_v65 main_v66 (addf : (⟨S1x1024, .f32⟩ : BufTy).Contents (Elt F) → (⟨S1x1024, .f32⟩ : BufTy).Contents (Elt F) → (⟨S1x1024, .f32⟩ : BufTy).Contents (Elt F)),
    unary main_arg12 main_v67 ((transpose S1024x50257 [1, 0] · transposes_S50257x1024_S1024x50257_1_0) : (⟨S50257x1024, .f32⟩ : BufTy).Contents (Elt F) → (⟨S1024x50257, .f32⟩ : BufTy).Contents (Elt F)),
    binary main_v66 main_v67 main_v68 ((fun l r => Host.dotGeneral dot_S1x1024_S1024x50257_S1x50257_1_0_0_1_n_n none l r) : (⟨S1x1024, .f32⟩ : BufTy).Contents (Elt F) → (⟨S1024x50257, .f32⟩ : BufTy).Contents (Elt F) → (⟨S1x50257, .f32⟩ : BufTy).Contents (Elt F)),
    unary main_arg13 main_v69 (broadcastInDim S1x50257 ![1] bcast_S50257_S1x50257_1 : (⟨S50257, .f32⟩ : BufTy).Contents (Elt F) → (⟨S1x50257, .f32⟩ : BufTy).Contents (Elt F)),
    binary main_v68 main_v69 main_v70 (addf : (⟨S1x50257, .f32⟩ : BufTy).Contents (Elt F) → (⟨S1x50257, .f32⟩ : BufTy).Contents (Elt F) → (⟨S1x50257, .f32⟩ : BufTy).Contents (Elt F)),
    unary main_v66 main_v71 (broadcastInDim S1x1x1024 ![1, 2] bcast_S1x1024_S1x1x1024_1_2 : (⟨S1x1024, .f32⟩ : BufTy).Contents (Elt F) → (⟨S1x1x1024, .f32⟩ : BufTy).Contents (Elt F)) ]

theorem ops_split : (ops : List (HloOp τ sig (Elt F))) = opsA ++ (opsB ++ (opsC ++ opsD)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., binary_bufs_sub .., unary_bufs_sub .., binary_bufs_sub .., unary_bufs_sub ..⟩

/-- Every weakly fair execution of @main terminates, and each buffer ends at the fold of the operations' results over its launch
    contents. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- No operation writes `main_arg0`. -/
theorem kept_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg1`. -/
theorem kept_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg2`. -/
theorem kept_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg3`. -/
theorem kept_arg3 (V : Valuation τ sig (Elt F)) : after ops V (Proc.devRef .tc main_arg3) = V (Proc.devRef .tc main_arg3) :=
  after_of_forall_not_mem (b := Proc.devRef .tc main_arg3) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg4`. -/
theorem kept_arg4 (V : Valuation τ sig (Elt F)) : after ops V (Proc.devRef .tc main_arg4) = V (Proc.devRef .tc main_arg4) :=
  after_of_forall_not_mem (b := Proc.devRef .tc main_arg4) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg5`. -/
theorem kept_arg5 (V : Valuation τ sig (Elt F)) : after ops V (Proc.devRef .tc main_arg5) = V (Proc.devRef .tc main_arg5) :=
  after_of_forall_not_mem (b := Proc.devRef .tc main_arg5) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg6`. -/
theorem kept_arg6 (V : Valuation τ sig (Elt F)) : after ops V (Proc.devRef .tc main_arg6) = V (Proc.devRef .tc main_arg6) :=
  after_of_forall_not_mem (b := Proc.devRef .tc main_arg6) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg7`. -/
theorem kept_arg7 (V : Valuation τ sig (Elt F)) : after ops V (Proc.devRef .tc main_arg7) = V (Proc.devRef .tc main_arg7) :=
  after_of_forall_not_mem (b := Proc.devRef .tc main_arg7) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg8`. -/
theorem kept_arg8 (V : Valuation τ sig (Elt F)) : after ops V (Proc.devRef .tc main_arg8) = V (Proc.devRef .tc main_arg8) :=
  after_of_forall_not_mem (b := Proc.devRef .tc main_arg8) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg9`. -/
theorem kept_arg9 (V : Valuation τ sig (Elt F)) : after ops V (Proc.devRef .tc main_arg9) = V (Proc.devRef .tc main_arg9) :=
  after_of_forall_not_mem (b := Proc.devRef .tc main_arg9) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg10`. -/
theorem kept_arg10 (V : Valuation τ sig (Elt F)) : after ops V (Proc.devRef .tc main_arg10) = V (Proc.devRef .tc main_arg10) :=
  after_of_forall_not_mem (b := Proc.devRef .tc main_arg10) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg11`. -/
theorem kept_arg11 (V : Valuation τ sig (Elt F)) : after ops V (Proc.devRef .tc main_arg11) = V (Proc.devRef .tc main_arg11) :=
  after_of_forall_not_mem (b := Proc.devRef .tc main_arg11) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg12`. -/
theorem kept_arg12 (V : Valuation τ sig (Elt F)) : after ops V (Proc.devRef .tc main_arg12) = V (Proc.devRef .tc main_arg12) :=
  after_of_forall_not_mem (b := Proc.devRef .tc main_arg12) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))
/-- No operation writes `main_arg13`. -/
theorem kept_arg13 (V : Valuation τ sig (Elt F)) : after ops V (Proc.devRef .tc main_arg13) = V (Proc.devRef .tc main_arg13) :=
  after_of_forall_not_mem (b := Proc.devRef .tc main_arg13) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

end Cert.ReferenceIdeal.Line

end
-- ==== Proof.ChainBase.lean ====
/-
  The two host lines side by side: buffer contents of the reference's core and of the kernel's, what each stretch of operations
  leaves untouched, and what the reference's last stretch computes from the contents it finds.
-/
import proofs.«152729_j16836271800433_1_alg».proof.Proof.RefLine
import proofs.«152729_j16836271800433_1_alg».proof.Proof.Gen.KernelIdeal.Frame
import Idealize.ShloMosaic.Lib.StableHlo.Run
import Idealize.ShloMosaic.PureOps.Ideal

set_option maxRecDepth 16384

noncomputable section

namespace Cert.Chain

open Idealize.ShloMosaic Idealize.ShloMosaic.TcCoe Idealize.ShloMosaic.Tactic
open Idealize.SL.Sem Idealize.ShloMosaic.StableHlo

/-- Buffer contents of the reference's core, and of the kernel's. -/
abbrev VR := Valuation Cert.ReferenceIdeal.τ Cert.ReferenceIdeal.sig (Elt Ideal)
abbrev VK := Valuation Cert.KernelIdeal.τ Cert.KernelIdeal.sig (Elt Ideal)

theorem after_append_R (l₁ l₂ : List (HloOp Cert.ReferenceIdeal.τ Cert.ReferenceIdeal.sig (Elt Ideal))) (V : VR) : after (l₁ ++ l₂) V = after l₂ (after l₁ V) := by
  induction l₁ generalizing V with
  | nil => rfl
  | cons op l ih => simp only [List.cons_append, after_cons, ih]

theorem after_append_K (l₁ l₂ : List (HloOp Cert.KernelIdeal.τ Cert.KernelIdeal.sig (Elt Ideal))) (V : VK) : after (l₁ ++ l₂) V = after l₂ (after l₁ V) := by
  induction l₁ generalizing V with
  | nil => rfl
  | cons op l ih => simp only [List.cons_append, after_cons, ih]

/-- The two cores hold the same fourteen argument arrays. -/
def ArgsAgree (WR : VR) (WK : VK) : Prop :=
  WR (Proc.devRef .tc Cert.ReferenceIdeal.main_arg0) = WK (Proc.devRef .tc Cert.KernelIdeal.main_arg0)
    ∧ WR (Proc.devRef .tc Cert.ReferenceIdeal.main_arg1) = WK (Proc.devRef .tc Cert.KernelIdeal.main_arg1)
    ∧ WR (Proc.devRef .tc Cert.ReferenceIdeal.main_arg2) = WK (Proc.devRef .tc Cert.KernelIdeal.main_arg2)
    ∧ WR (Proc.devRef .tc Cert.ReferenceIdeal.main_arg3) = WK (Proc.devRef .tc Cert.KernelIdeal.main_arg3)
    ∧ WR (Proc.devRef .tc Cert.ReferenceIdeal.main_arg4) = WK (Proc.devRef .tc Cert.KernelIdeal.main_arg4)
    ∧ WR (Proc.devRef .tc Cert.ReferenceIdeal.main_arg5) = WK (Proc.devRef .tc Cert.KernelIdeal.main_arg5)
    ∧ WR (Proc.devRef .tc Cert.ReferenceIdeal.main_arg6) = WK (Proc.devRef .tc Cert.KernelIdeal.main_arg6)
    ∧ WR (Proc.devRef .tc Cert.ReferenceIdeal.main_arg7) = WK (Proc.devRef .tc Cert.KernelIdeal.main_arg7)
    ∧ WR (Proc.devRef .tc Cert.ReferenceIdeal.main_arg8) = WK (Proc.devRef .tc Cert.KernelIdeal.main_arg8)
    ∧ WR (Proc.devRef .tc Cert.ReferenceIdeal.main_arg9) = WK (Proc.devRef .tc Cert.KernelIdeal.main_arg9)
    ∧ WR (Proc.devRef .tc Cert.ReferenceIdeal.main_arg10) = WK (Proc.devRef .tc Cert.KernelIdeal.main_arg10)
    ∧ WR (Proc.devRef .tc Cert.ReferenceIdeal.main_arg11) = WK (Proc.devRef .tc Cert.KernelIdeal.main_arg11)
    ∧ WR (Proc.devRef .tc Cert.ReferenceIdeal.main_arg12) = WK (Proc.devRef .tc Cert.KernelIdeal.main_arg12)
    ∧ WR (Proc.devRef .tc Cert.ReferenceIdeal.main_arg13) = WK (Proc.devRef .tc Cert.KernelIdeal.main_arg13)

/-! ## Two arrays joined along an axis, as a function of the two -/

/-- `concatenate` of exactly two operands, with the operands as plain arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

/-! ## What each stretch leaves untouched -/

theorem A_keepsR8 (W : VR) : after ((Cert.ReferenceIdeal.Line.opsA (F := Ideal))) W (Proc.devRef .tc Cert.ReferenceIdeal.main_arg8) = W (Proc.devRef .tc Cert.ReferenceIdeal.main_arg8) := by
  (try simp only [List.cons_append, List.nil_append])
  after_results_simp
theorem A_keepsR9 (W : VR) : after ((Cert.ReferenceIdeal.Line.opsA (F := Ideal))) W (Proc.devRef .tc Cert.ReferenceIdeal.main_arg9) = W (Proc.devRef .tc Cert.ReferenceIdeal.main_arg9) := by
  (try simp only [List.cons_append, List.nil_append])
  after_results_simp
theorem A_keepsR10 (W : VR) : after ((Cert.ReferenceIdeal.Line.opsA (F := Ideal))) W (Proc.devRef .tc Cert.ReferenceIdeal.main_arg10) = W (Proc.devRef .tc Cert.ReferenceIdeal.main_arg10) := by
  (try simp only [List.cons_append, List.nil_append])
  after_results_simp
theorem A_keepsR11 (W : VR) : after ((Cert.ReferenceIdeal.Line.opsA (F := Ideal))) W (Proc.devRef .tc Cert.ReferenceIdeal.main_arg11) = W (Proc.devRef .tc Cert.ReferenceIdeal.main_arg11) := by
  (try simp only [List.cons_append, List.nil_append])
  after_results_simp
theorem A_keepsR12 (W : VR) : after ((Cert.ReferenceIdeal.Line.opsA (F := Ideal))) W (Proc.devRef .tc Cert.ReferenceIdeal.main_arg12) = W (Proc.devRef .tc Cert.ReferenceIdeal.main_arg12) := by
  (try simp only [List.cons_append, List.nil_append])
  after_results_simp
theorem A_keepsR13 (W : VR) : after ((Cert.ReferenceIdeal.Line.opsA (F := Ideal))) W (Proc.devRef .tc Cert.ReferenceIdeal.main_arg13) = W (Proc.devRef .tc Cert.ReferenceIdeal.main_arg13) := by
  (try simp only [List.cons_append, List.nil_append])
  after_results_simp
theorem A_keepsK8 (W : VK) : after ((Cert.KernelIdeal.Gen.hostOps0 (F := Ideal))) W (Proc.devRef .tc Cert.KernelIdeal.main_arg8) = W (Proc.devRef .tc Cert.KernelIdeal.main_arg8) := by
  (try simp only [List.cons_append, List.nil_append])
  after_results_simp
theorem A_keepsK9 (W : VK) : after ((Cert.KernelIdeal.Gen.hostOps0 (F := Ideal))) W (Proc.devRef .tc Cert.KernelIdeal.main_arg9) = W (Proc.devRef .tc Cert.KernelIdeal.main_arg9) := by
  (try simp only [List.cons_append, List.nil_append])
  after_results_simp
theorem A_keepsK10 (W : VK) : after ((Cert.KernelIdeal.Gen.hostOps0 (F := Ideal))) W (Proc.devRef .tc Cert.KernelIdeal.main_arg10) = W (Proc.devRef .tc Cert.KernelIdeal.main_arg10) := by
  (try simp only [List.cons_append, List.nil_append])
  after_results_simp
theorem A_keepsK11 (W : VK) : after ((Cert.KernelIdeal.Gen.hostOps0 (F := Ideal))) W (Proc.devRef .tc Cert.KernelIdeal.main_arg11) = W (Proc.devRef .tc Cert.KernelIdeal.main_arg11) := by
  (try simp only [List.cons_append, List.nil_append])
  after_results_simp
theorem BC_keepsR23 (W : VR) : after ((Cert.ReferenceIdeal.Line.opsB (F := Ideal)) ++ (Cert.ReferenceIdeal.Line.opsC (F := Ideal))) W (Proc.devRef .tc Cert.ReferenceIdeal.main_v23) = W (Proc.devRef .tc Cert.ReferenceIdeal.main_v23) := by
  (try simp only [List.cons_append, List.nil_append])
  after_results_simp
theorem BC_keepsR12 (W : VR) : after ((Cert.ReferenceIdeal.Line.opsB (F := Ideal)) ++ (Cert.ReferenceIdeal.Line.opsC (F := Ideal))) W (Proc.devRef .tc Cert.ReferenceIdeal.main_arg12) = W (Proc.devRef .tc Cert.ReferenceIdeal.main_arg12) := by
  (try simp only [List.cons_append, List.nil_append])
  after_results_simp
theorem BC_keepsR13 (W : VR) : after ((Cert.ReferenceIdeal.Line.opsB (F := Ideal)) ++ (Cert.ReferenceIdeal.Line.opsC (F := Ideal))) W (Proc.devRef .tc Cert.ReferenceIdeal.main_arg13) = W (Proc.devRef .tc Cert.ReferenceIdeal.main_arg13) := by
  (try simp only [List.cons_append, List.nil_append])
  after_results_simp
theorem BC_keepsK23 (W : VK) : after ((Cert.KernelIdeal.Gen.hostOps0_1 (F := Ideal)) ++ (Cert.KernelIdeal.Gen.hostOps0_2 (F := Ideal))) W (Proc.devRef .tc Cert.KernelIdeal.main_v23) = W (Proc.devRef .tc Cert.KernelIdeal.main_v23) := by
  (try simp only [List.cons_append, List.nil_append])
  after_results_simp
theorem D_keeps66 (W : VR) : after ((Cert.ReferenceIdeal.Line.opsD (F := Ideal))) W (Proc.devRef .tc Cert.ReferenceIdeal.main_v66) = W (Proc.devRef .tc Cert.ReferenceIdeal.main_v66) := by
  (try simp only [List.cons_append, List.nil_append])
  after_results_simp
theorem D_keeps23 (W : VR) : after ((Cert.ReferenceIdeal.Line.opsD (F := Ideal))) W (Proc.devRef .tc Cert.ReferenceIdeal.main_v23) = W (Proc.devRef .tc Cert.ReferenceIdeal.main_v23) := by
  (try simp only [List.cons_append, List.nil_append])
  after_results_simp
theorem D_keeps12 (W : VR) : after ((Cert.ReferenceIdeal.Line.opsD (F := Ideal))) W (Proc.devRef .tc Cert.ReferenceIdeal.main_arg12) = W (Proc.devRef .tc Cert.ReferenceIdeal.main_arg12) := by
  (try simp only [List.cons_append, List.nil_append])
  after_results_simp
theorem D_keeps13 (W : VR) : after ((Cert.ReferenceIdeal.Line.opsD (F := Ideal))) W (Proc.devRef .tc Cert.ReferenceIdeal.main_arg13) = W (Proc.devRef .tc Cert.ReferenceIdeal.main_arg13) := by
  (try simp only [List.cons_append, List.nil_append])
  after_results_simp

/-! ## The reference's last stretch -/

theorem D_v70 (W : VR) : (after (Cert.ReferenceIdeal.Line.opsD (F := Ideal)) W (Proc.devRef .tc Cert.ReferenceIdeal.main_v70) : FVec Ideal Cert.ReferenceIdeal.S1x50257 .f32)
    = addf (F := Ideal) (Host.dotGeneral (F := Ideal) (φ₁ := .f32) (φ₂ := .f32) Cert.ReferenceIdeal.dot_S1x1024_S1024x50257_S1x50257_1_0_0_1_n_n none (W (Proc.devRef .tc Cert.ReferenceIdeal.main_v66))
        (transpose Cert.ReferenceIdeal.S1024x50257 [1, 0] (W (Proc.devRef .tc Cert.ReferenceIdeal.main_arg12)) Cert.ReferenceIdeal.Gen.transposes_S50257x1024_S1024x50257_1_0))
      (broadcastInDim Cert.ReferenceIdeal.S1x50257 ![1] Cert.ReferenceIdeal.Gen.bcast_S50257_S1x50257_1 (W (Proc.devRef .tc Cert.ReferenceIdeal.main_arg13))) := by
  after_results_simp <;> rfl

theorem D_v71 (W : VR) : (after (Cert.ReferenceIdeal.Line.opsD (F := Ideal)) W (Proc.devRef .tc Cert.ReferenceIdeal.main_v71) : FVec Ideal Cert.ReferenceIdeal.S1x1x1024 .f32)
    = broadcastInDim Cert.ReferenceIdeal.S1x1x1024 ![1, 2] Cert.ReferenceIdeal.Gen.bcast_S1x1024_S1x1x1024_1_2 (W (Proc.devRef .tc Cert.ReferenceIdeal.main_v66) : FVec Ideal Cert.ReferenceIdeal.S1x1024 .f32) := by
  after_results_simp <;> rfl

end Cert.Chain

end
-- ==== Proof.ChainStretchA.lean ====
/-
  First stretch (the embedding gather, the attention scores and softmax, the context, the combine): from the same argument
  arrays both lines leave the same re-laid hidden state, attention weights and pre-activation.
-/
import proofs.«152729_j16836271800433_1_alg».proof.Proof.ChainBase

set_option maxRecDepth 16384

noncomputable section

namespace Cert.Chain

open Idealize.ShloMosaic Idealize.ShloMosaic.TcCoe Idealize.ShloMosaic.Tactic
open Idealize.SL.Sem Idealize.ShloMosaic.StableHlo

set_option maxHeartbeats 8000000 in
theorem A_v7 (WR : VR) (WK : VK) (h : ArgsAgree WR WK) :
    after ((Cert.ReferenceIdeal.Line.opsA (F := Ideal))) WR (Proc.devRef .tc Cert.ReferenceIdeal.main_v7) = after ((Cert.KernelIdeal.Gen.hostOps0 (F := Ideal))) WK (Proc.devRef .tc Cert.KernelIdeal.main_v7) := by
  obtain ⟨h0, h1, h2, h3, h4, h5, h6, h7, h8, h9, h10, h11, h12, h13⟩ := h
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
  simp only [h1]
  rfl

set_option maxHeartbeats 8000000 in
theorem A_v23 (WR : VR) (WK : VK) (h : ArgsAgree WR WK) :
    after ((Cert.ReferenceIdeal.Line.opsA (F := Ideal))) WR (Proc.devRef .tc Cert.ReferenceIdeal.main_v23) = after ((Cert.KernelIdeal.Gen.hostOps0 (F := Ideal))) WK (Proc.devRef .tc Cert.KernelIdeal.main_v23) := by
  obtain ⟨h0, h1, h2, h3, h4, h5, h6, h7, h8, h9, h10, h11, h12, h13⟩ := h
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
  simp only [h0, h1, h3, h4, h5]
  rfl

set_option maxHeartbeats 8000000 in
theorem A_v29 (WR : VR) (WK : VK) (h : ArgsAgree WR WK) :
    after ((Cert.ReferenceIdeal.Line.opsA (F := Ideal))) WR (Proc.devRef .tc Cert.ReferenceIdeal.main_v29) = after ((Cert.KernelIdeal.Gen.hostOps0 (F := Ideal))) WK (Proc.devRef .tc Cert.KernelIdeal.main_v29) := by
  obtain ⟨h0, h1, h2, h3, h4, h5, h6, h7, h8, h9, h10, h11, h12, h13⟩ := h
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
  simp only [h0, h1, h2, h3, h4, h5, h6, h7]
  rfl

end Cert.Chain

end
-- ==== Proof.ChainStretchBC.lean ====
/-
  Second stretch (relu and the GRU step): from the same pre-activation, hidden state and GRU weights both lines leave the same
  new hidden row.
-/
import proofs.«152729_j16836271800433_1_alg».proof.Proof.ChainBase

set_option maxRecDepth 16384

noncomputable section

namespace Cert.Chain

open Idealize.ShloMosaic Idealize.ShloMosaic.TcCoe Idealize.ShloMosaic.Tactic
open Idealize.SL.Sem Idealize.ShloMosaic.StableHlo

set_option maxHeartbeats 8000000 in
theorem BC_v66 (WR : VR) (WK : VK) (h29 : WR (Proc.devRef .tc Cert.ReferenceIdeal.main_v29) = WK (Proc.devRef .tc Cert.KernelIdeal.main_v29)) (h7 : WR (Proc.devRef .tc Cert.ReferenceIdeal.main_v7) = WK (Proc.devRef .tc Cert.KernelIdeal.main_v7))
    (h8 : WR (Proc.devRef .tc Cert.ReferenceIdeal.main_arg8) = WK (Proc.devRef .tc Cert.KernelIdeal.main_arg8)) (h9 : WR (Proc.devRef .tc Cert.ReferenceIdeal.main_arg9) = WK (Proc.devRef .tc Cert.KernelIdeal.main_arg9))
    (h10 : WR (Proc.devRef .tc Cert.ReferenceIdeal.main_arg10) = WK (Proc.devRef .tc Cert.KernelIdeal.main_arg10)) (h11 : WR (Proc.devRef .tc Cert.ReferenceIdeal.main_arg11) = WK (Proc.devRef .tc Cert.KernelIdeal.main_arg11)) :
    after ((Cert.ReferenceIdeal.Line.opsB (F := Ideal)) ++ (Cert.ReferenceIdeal.Line.opsC (F := Ideal))) WR (Proc.devRef .tc Cert.ReferenceIdeal.main_v66) = after ((Cert.KernelIdeal.Gen.hostOps0_1 (F := Ideal)) ++ (Cert.KernelIdeal.Gen.hostOps0_2 (F := Ideal))) WK (Proc.devRef .tc Cert.KernelIdeal.main_v66) := by
  simp only [List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', concatenate_pair]
  simp only [h29, h7, h8, h9, h10, h11]
  rfl

end Cert.Chain

end
-- ==== Proof.RefLogitsIdeal.lean ====
/-
  The reference's last three lines, at the ideal values: the hidden row contracted with the transposed weight matrix, plus the
  bias broadcast along the row. Over the extended reals the host's dot_general is the plain sum over the contraction index,
  the transpose and the broadcast only re-index, and the add is +: index by index, the logits function.
-/
import proofs.«152729_j16836271800433_1_alg».proof.Proof.LogitsIdeal
import proofs.«152729_j16836271800433_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.RefLogits

open Idealize.ShloMosaic Idealize.ShloMosaic.TcCoe Idealize.ShloMosaic.ValueIdx

theorem lhs_coord0 (i : Cert.ReferenceIdeal.S1x50257.Idx) (q : Cert.ReferenceIdeal.dot_S1x1024_S1024x50257_S1x50257_1_0_0_1_n_n.contr.Idx) : (Cert.ReferenceIdeal.dot_S1x1024_S1024x50257_S1x50257_1_0_0_1_n_n.lhsIdx i q 0).val = (i 0).val := by
  unfold DotDims.lhsIdx
  rw [dif_neg (show ¬(0 : Fin Cert.ReferenceIdeal.S1x1024.rank) ∈ Cert.ReferenceIdeal.dot_S1x1024_S1024x50257_S1x50257_1_0_0_1_n_n.lhsBatch by decide), dif_pos (show (0 : Fin Cert.ReferenceIdeal.S1x1024.rank) ∈ Cert.ReferenceIdeal.dot_S1x1024_S1024x50257_S1x50257_1_0_0_1_n_n.lhsNonContracting by decide)]
  rfl

theorem rhs_coord1 (i : Cert.ReferenceIdeal.S1x50257.Idx) (q : Cert.ReferenceIdeal.dot_S1x1024_S1024x50257_S1x50257_1_0_0_1_n_n.contr.Idx) : (Cert.ReferenceIdeal.dot_S1x1024_S1024x50257_S1x50257_1_0_0_1_n_n.rhsIdx i q 1).val = (i 1).val := by
  unfold DotDims.rhsIdx
  rw [dif_neg (show ¬(1 : Fin Cert.ReferenceIdeal.S1024x50257.rank) ∈ Cert.ReferenceIdeal.dot_S1x1024_S1024x50257_S1x50257_1_0_0_1_n_n.rhsBatch by decide), dif_pos (show (1 : Fin Cert.ReferenceIdeal.S1024x50257.rank) ∈ Cert.ReferenceIdeal.dot_S1x1024_S1024x50257_S1x50257_1_0_0_1_n_n.rhsNonContracting by decide)]
  rfl

/-- The hidden row contracted with the transposed weight matrix, plus the broadcast bias: index by index, the logits. -/
theorem ref_logits (h : FVec Ideal Cert.ReferenceIdeal.S1x1024 .f32) (W : FVec Ideal Cert.ReferenceIdeal.S50257x1024 .f32) (b : FVec Ideal Cert.ReferenceIdeal.S50257 .f32) :
    addf (F := Ideal) (s := Cert.ReferenceIdeal.S1x50257) (φ := .f32)
        (Host.dotGeneral (F := Ideal) Cert.ReferenceIdeal.dot_S1x1024_S1024x50257_S1x50257_1_0_0_1_n_n none h (transpose Cert.ReferenceIdeal.S1024x50257 [1, 0] W Cert.ReferenceIdeal.Gen.transposes_S50257x1024_S1024x50257_1_0))
        (broadcastInDim Cert.ReferenceIdeal.S1x50257 ![1] Cert.ReferenceIdeal.Gen.bcast_S50257_S1x50257_1 b)
      = Cert.KernelIdeal.Logits.logits h W b := by
  funext i
  have hi0 : (i 0).val = 0 := by have h1 : (i 0).val < 1 := (i 0).isLt; omega
  refine (addf_apply _ _ _).trans ?_
  unfold Cert.KernelIdeal.Logits.logits Cert.KernelIdeal.Logits.logitAt
  refine congrArg₂ (· + ·) ?_ ?_
  · simp only [Host.dotGeneral]
    rw [Ideal.dotGeneral_apply, ← Equiv.sum_comp (contrEquiv1 Cert.ReferenceIdeal.dot_S1x1024_S1024x50257_S1x50257_1_0_0_1_n_n 1024 rfl rfl).symm]
    refine Finset.sum_congr rfl fun k _ => ?_
    have hk := contrEquiv1_symm_val Cert.ReferenceIdeal.dot_S1x1024_S1024x50257_S1x50257_1_0_0_1_n_n 1024 rfl rfl k
    have el : Cert.ReferenceIdeal.dot_S1x1024_S1024x50257_S1x50257_1_0_0_1_n_n.lhsIdx i ((contrEquiv1 Cert.ReferenceIdeal.dot_S1x1024_S1024x50257_S1x50257_1_0_0_1_n_n 1024 rfl rfl).symm k) = ix2 (0 : Fin 1) k :=
      funext fun a => Fin.ext (by
        match a with
        | ⟨0, _⟩ => exact (lhs_coord0 _ _).trans hi0
        | ⟨1, _⟩ => exact (Cert.ReferenceIdeal.dot_S1x1024_S1024x50257_S1x50257_1_0_0_1_n_n.lhsIdx_val_of_single rfl _ _).trans hk)
    have er : Cert.ReferenceIdeal.dot_S1x1024_S1024x50257_S1x50257_1_0_0_1_n_n.rhsIdx i ((contrEquiv1 Cert.ReferenceIdeal.dot_S1x1024_S1024x50257_S1x50257_1_0_0_1_n_n 1024 rfl rfl).symm k) = ix2 k (⟨(i 1).val, (i 1).isLt⟩ : Fin 50257) :=
      funext fun a => Fin.ext (by
        match a with
        | ⟨0, _⟩ => exact (Cert.ReferenceIdeal.dot_S1x1024_S1024x50257_S1x50257_1_0_0_1_n_n.rhsIdx_val_of_single rfl _ _).trans hk
        | ⟨1, _⟩ => exact rhs_coord1 _ _)
    rw [el, er]
    exact congrArg (h (ix2 (0 : Fin 1) k) * ·) (transpose_apply [1, 0] W Cert.ReferenceIdeal.Gen.transposes_S50257x1024_S1024x50257_1_0
      (ix2 k (⟨(i 1).val, (i 1).isLt⟩ : Fin 50257)) (ix2 (⟨(i 1).val, (i 1).isLt⟩ : Fin 50257) k)
      (fun b => match b with
        | ⟨0, _⟩ => rfl
        | ⟨1, _⟩ => rfl))
  · exact broadcastInDim_apply _ Cert.ReferenceIdeal.Gen.bcast_S50257_S1x50257_1 b i (ix1 (⟨(i 1).val, (i 1).isLt⟩ : Fin 50257)) (fun a => match a with
      | ⟨0, _⟩ => by show (i 1).val = if (50257 : Nat) = 1 then 0 else (i 1).val; rw [if_neg (by decide)])

end Cert.RefLogits

end
-- ==== Proof.ChainCompose.lean ====
/-
  The two host lines joined end to end: from memories that agree on the fourteen arguments, the reference's three results are
  the logits of the arrays the kernel's region finds, the kernel's hidden row re-laid, and the attention weights the kernel's
  region finds.
-/
import proofs.«152729_j16836271800433_1_alg».proof.Proof.ChainStretchA
import proofs.«152729_j16836271800433_1_alg».proof.Proof.ChainStretchBC
import proofs.«152729_j16836271800433_1_alg».proof.Proof.LogitsIdeal
import proofs.«152729_j16836271800433_1_alg».proof.Proof.RefLogitsIdeal

set_option maxRecDepth 16384

noncomputable section

namespace Cert.Chain

open Idealize.ShloMosaic Idealize.ShloMosaic.TcCoe Idealize.ShloMosaic.Tactic
open Idealize.SL.Sem Idealize.ShloMosaic.StableHlo

variable (mR : (ℓ : Loc Cert.ReferenceIdeal.nD Cert.ReferenceIdeal.τ Cert.ReferenceIdeal.sig) → Buf (Elt Ideal) ℓ) (mK : (ℓ : Loc Cert.KernelIdeal.nD Cert.KernelIdeal.τ Cert.KernelIdeal.sig) → Buf (Elt Ideal) ℓ)

/-- The kernel's region finds what its three stretches of host lines leave. -/
theorem kernel_prefix_split (c : Dev Cert.KernelIdeal.nD) (b : Ref Cert.KernelIdeal.sig .tc) :
    Cert.KernelIdeal.Gen.V mK c b = after ((Cert.KernelIdeal.Gen.hostOps0_1 (F := Ideal)) ++ (Cert.KernelIdeal.Gen.hostOps0_2 (F := Ideal))) (after (Cert.KernelIdeal.Gen.hostOps0 (F := Ideal)) (launchContents mK c)) (Proc.devRef .tc b) := by
  dsimp only [Cert.KernelIdeal.Gen.V, Cert.KernelIdeal.Gen.V0]
  rw [show List.flatten [(Cert.KernelIdeal.Gen.hostOps0 (F := Ideal)), (Cert.KernelIdeal.Gen.hostOps0_1 (F := Ideal)), (Cert.KernelIdeal.Gen.hostOps0_2 (F := Ideal))]
      = (Cert.KernelIdeal.Gen.hostOps0 (F := Ideal)) ++ ((Cert.KernelIdeal.Gen.hostOps0_1 (F := Ideal)) ++ (Cert.KernelIdeal.Gen.hostOps0_2 (F := Ideal))) from by
        simp only [List.flatten_cons, List.flatten_nil, List.append_nil], after_append_K]

/-- The reference's line, stretch by stretch. -/
theorem ref_line_split (c : Dev Cert.KernelIdeal.nD) (b : Ref Cert.ReferenceIdeal.sig .tc) :
    after (Cert.ReferenceIdeal.Line.ops (F := Ideal)) (launchContents mR c) (Proc.devRef .tc b)
      = after (Cert.ReferenceIdeal.Line.opsD (F := Ideal)) (after ((Cert.ReferenceIdeal.Line.opsB (F := Ideal)) ++ (Cert.ReferenceIdeal.Line.opsC (F := Ideal))) (after (Cert.ReferenceIdeal.Line.opsA (F := Ideal)) (launchContents mR c))) (Proc.devRef .tc b) := by
  rw [Cert.ReferenceIdeal.Line.ops_split, after_append_R, ← List.append_assoc, after_append_R]

/-- The new hidden row: the reference's, before its last stretch, is the one the kernel's region finds. -/
theorem hidden_agree (c : Dev Cert.KernelIdeal.nD) (h : ArgsAgree (launchContents mR c) (launchContents mK c)) :
    after ((Cert.ReferenceIdeal.Line.opsB (F := Ideal)) ++ (Cert.ReferenceIdeal.Line.opsC (F := Ideal))) (after (Cert.ReferenceIdeal.Line.opsA (F := Ideal)) (launchContents mR c)) (Proc.devRef .tc Cert.ReferenceIdeal.main_v66) = Cert.KernelIdeal.Gen.V mK c Cert.KernelIdeal.main_v66 := by
  rw [kernel_prefix_split]
  obtain ⟨h0, h1, h2, h3, h4, h5, h6, h7, h8, h9, h10, h11, h12, h13⟩ := id h
  exact BC_v66 _ _ (A_v29 _ _ h) (A_v7 _ _ h)
    ((A_keepsR8 _).trans (h8.trans (A_keepsK8 _).symm)) ((A_keepsR9 _).trans (h9.trans (A_keepsK9 _).symm))
    ((A_keepsR10 _).trans (h10.trans (A_keepsK10 _).symm)) ((A_keepsR11 _).trans (h11.trans (A_keepsK11 _).symm))

/-- The reference's attention weights are the ones the kernel's region finds. -/
theorem ref_attn (c : Dev Cert.KernelIdeal.nD) (h : ArgsAgree (launchContents mR c) (launchContents mK c)) :
    after (Cert.ReferenceIdeal.Line.ops (F := Ideal)) (launchContents mR c) (Proc.devRef .tc Cert.ReferenceIdeal.main_v23) = Cert.KernelIdeal.Gen.V mK c Cert.KernelIdeal.main_v23 := by
  rw [ref_line_split, D_keeps23, BC_keepsR23, kernel_prefix_split, BC_keepsK23]
  exact A_v23 _ _ h

/-- The reference's re-laid hidden row is the kernel's hidden row re-laid. -/
theorem ref_relaid (c : Dev Cert.KernelIdeal.nD) (h : ArgsAgree (launchContents mR c) (launchContents mK c)) :
    (after (Cert.ReferenceIdeal.Line.ops (F := Ideal)) (launchContents mR c) (Proc.devRef .tc Cert.ReferenceIdeal.main_v71) : FVec Ideal Cert.ReferenceIdeal.S1x1x1024 .f32)
      = broadcastInDim Cert.KernelIdeal.S1x1x1024 ![1, 2] Cert.KernelIdeal.Gen.bcast_S1x1024_S1x1x1024_1_2 (Cert.KernelIdeal.Gen.V mK c Cert.KernelIdeal.main_v66) := by
  rw [ref_line_split, D_v71, hidden_agree mR mK c h]

/-- The reference's logits are the logits of the arrays the kernel's region finds. -/
theorem ref_logits_region (c : Dev Cert.KernelIdeal.nD) (h : ArgsAgree (launchContents mR c) (launchContents mK c)) :
    (after (Cert.ReferenceIdeal.Line.ops (F := Ideal)) (launchContents mR c) (Proc.devRef .tc Cert.ReferenceIdeal.main_v70) : FVec Ideal Cert.ReferenceIdeal.S1x50257 .f32)
      = Cert.KernelIdeal.Logits.regionLogits mK c := by
  obtain ⟨h0, h1, h2, h3, h4, h5, h6, h7, h8, h9, h10, h11, h12, h13⟩ := id h
  rw [ref_line_split, D_v70, hidden_agree mR mK c h, BC_keepsR12, BC_keepsR13, A_keepsR12, A_keepsR13]
  refine (Cert.RefLogits.ref_logits _ _ _).trans ?_
  unfold Cert.KernelIdeal.Logits.regionLogits
  rw [Cert.KernelIdeal.Gen.V_main_arg12 mK c, Cert.KernelIdeal.Gen.V_main_arg13 mK c]
  exact congrArg₂ (Cert.KernelIdeal.Logits.logits (Cert.KernelIdeal.Gen.V mK c Cert.KernelIdeal.main_v66)) h12 h13

end Cert.Chain

end
-- ==== Proof.lean ====
/-
  Single-step attention GRU decoder: the vocabulary projection computed tile by tile equals the reference's one contraction.

  Both programs compute the hidden row h (embedding gather, attention softmax over the encoder window, combine + relu, one GRU
  step) with the same host operations; the kernel then forms  logits = h · Wᵀ + b  in thirteen tiles of 4096 vocabulary rows
  (the last overhanging the 50257-row arrays), the reference in one dot_general and one add. Over the extended reals each logit
  is the same sum  Σ_k h[0,k] · W[v,k] + b[v]  on both sides, term for term in the same order: no law of arithmetic is used, only
  the reading of each side at an index, so the finiteness precondition is never opened. The other two results (the hidden row
  re-laid as [1,1,1024], the attention weights) are host values both programs compute alike: the two host lines are compared
  stretch by stretch, from the same argument arrays.

  The frames: the idealized kernel's comes with its run; the word-level kernel's from relational proof data that asks nothing of
  the staging buffers' contents; the reference is a straight line of host operations, none of which writes an argument. The
  idealization rewrote nothing, so `preserves` is trivial.
-/
import proofs.«152729_j16836271800433_1_alg».proof.Defs
import proofs.«152729_j16836271800433_1_alg».proof.Proof.Gen.Kernel
import proofs.«152729_j16836271800433_1_alg».proof.Proof.Gen.KernelIdeal
import proofs.«152729_j16836271800433_1_alg».proof.Proof.Gen.ReferenceIdeal
import proofs.«152729_j16836271800433_1_alg».proof.Proof.Gen.Pre_finite_inputs
import proofs.«152729_j16836271800433_1_alg».proof.Proof.FrameBits
import proofs.«152729_j16836271800433_1_alg».proof.Proof.LogitsIdeal
import proofs.«152729_j16836271800433_1_alg».proof.Proof.HostTailIdeal
import proofs.«152729_j16836271800433_1_alg».proof.Proof.RefLine
import proofs.«152729_j16836271800433_1_alg».proof.Proof.ChainCompose
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_p : Cert.frame_Kernel := fun m ρ _ => Cert.Kernel.FrameR.frame (F := Bits) m ρ

theorem frame_pi : Cert.frame_KernelIdeal := fun m ρ _ =>
  Cert.KernelIdeal.Gen.frame_of m ρ (Cert.KernelIdeal.Logits.dats m) (Cert.KernelIdeal.Logits.A_eq m) (Cert.KernelIdeal.Logits.run_main m ρ)

theorem frame_ri : Cert.frame_ReferenceIdeal := fun m ρ _ =>
  (θ_run Cert.ReferenceIdeal.defs _ _).mono (fun _ h c => ⟨
      (h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _),
      (h c Cert.ReferenceIdeal.main_arg6).trans (Cert.ReferenceIdeal.Line.kept_arg6 _),
      (h c Cert.ReferenceIdeal.main_arg7).trans (Cert.ReferenceIdeal.Line.kept_arg7 _),
      (h c Cert.ReferenceIdeal.main_arg8).trans (Cert.ReferenceIdeal.Line.kept_arg8 _),
      (h c Cert.ReferenceIdeal.main_arg9).trans (Cert.ReferenceIdeal.Line.kept_arg9 _),
      (h c Cert.ReferenceIdeal.main_arg10).trans (Cert.ReferenceIdeal.Line.kept_arg10 _),
      (h c Cert.ReferenceIdeal.main_arg11).trans (Cert.ReferenceIdeal.Line.kept_arg11 _),
      (h c Cert.ReferenceIdeal.main_arg12).trans (Cert.ReferenceIdeal.Line.kept_arg12 _),
      (h c Cert.ReferenceIdeal.main_arg13).trans (Cert.ReferenceIdeal.Line.kept_arg13 _)⟩)
    (Cert.ReferenceIdeal.Line.run_line (F := Ideal) m ρ)

theorem preserves : Cert.preserves_Kernel_KernelIdeal := trivial

/-- The idealized kernel's run with its three results named: the logits array at the logits of the arrays its region finds, the
    hidden row its region finds re-laid, and the attention weights its region finds. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v67) = Cert.KernelIdeal.Logits.regionLogits m c
      ∧ r.2.mem ((c.tc : Thread Cert.KernelIdeal.nD Cert.KernelIdeal.τ).loc Cert.KernelIdeal.main_v68) = broadcastInDim Cert.KernelIdeal.S1x1x1024 ![1, 2] Cert.KernelIdeal.Gen.bcast_S1x1024_S1x1x1024_1_2 (Cert.KernelIdeal.Gen.V m c Cert.KernelIdeal.main_v66)
      ∧ r.2.mem ((c.tc : Thread Cert.KernelIdeal.nD Cert.KernelIdeal.τ).loc Cert.KernelIdeal.main_v23) = Cert.KernelIdeal.Gen.V m c Cert.KernelIdeal.main_v23
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun _ h c => ⟨
      ((h c).1 3).trans (Cert.KernelIdeal.Logits.final_logits m c),
      ((h c).2 Cert.KernelIdeal.main_v68 (Pipeline.mem_restRefs_of Cert.KernelIdeal.main_v68 (by decide) (by decide))).trans (Cert.KernelIdeal.HostTail.tail_hidden m c),
      ((h c).2 Cert.KernelIdeal.main_v23 (Pipeline.mem_restRefs_of Cert.KernelIdeal.main_v23 (by decide) (by decide))).trans (Cert.KernelIdeal.HostTail.tail_attn m c),
      (((h c).2 Cert.KernelIdeal.main_arg0 (Pipeline.mem_restRefs_of Cert.KernelIdeal.main_arg0 (by decide) (by decide))).trans (Cert.KernelIdeal.Gen.W_main_arg0 m (Cert.KernelIdeal.Logits.dats m) c)),
      (((h c).2 Cert.KernelIdeal.main_arg1 (Pipeline.mem_restRefs_of Cert.KernelIdeal.main_arg1 (by decide) (by decide))).trans (Cert.KernelIdeal.Gen.W_main_arg1 m (Cert.KernelIdeal.Logits.dats m) c)),
      (((h c).2 Cert.KernelIdeal.main_arg2 (Pipeline.mem_restRefs_of Cert.KernelIdeal.main_arg2 (by decide) (by decide))).trans (Cert.KernelIdeal.Gen.W_main_arg2 m (Cert.KernelIdeal.Logits.dats m) c)),
      (((h c).2 Cert.KernelIdeal.main_arg3 (Pipeline.mem_restRefs_of Cert.KernelIdeal.main_arg3 (by decide) (by decide))).trans (Cert.KernelIdeal.Gen.W_main_arg3 m (Cert.KernelIdeal.Logits.dats m) c)),
      (((h c).2 Cert.KernelIdeal.main_arg4 (Pipeline.mem_restRefs_of Cert.KernelIdeal.main_arg4 (by decide) (by decide))).trans (Cert.KernelIdeal.Gen.W_main_arg4 m (Cert.KernelIdeal.Logits.dats m) c)),
      (((h c).2 Cert.KernelIdeal.main_arg5 (Pipeline.mem_restRefs_of Cert.KernelIdeal.main_arg5 (by decide) (by decide))).trans (Cert.KernelIdeal.Gen.W_main_arg5 m (Cert.KernelIdeal.Logits.dats m) c)),
      (((h c).2 Cert.KernelIdeal.main_arg6 (Pipeline.mem_restRefs_of Cert.KernelIdeal.main_arg6 (by decide) (by decide))).trans (Cert.KernelIdeal.Gen.W_main_arg6 m (Cert.KernelIdeal.Logits.dats m) c)),
      (((h c).2 Cert.KernelIdeal.main_arg7 (Pipeline.mem_restRefs_of Cert.KernelIdeal.main_arg7 (by decide) (by decide))).trans (Cert.KernelIdeal.Gen.W_main_arg7 m (Cert.KernelIdeal.Logits.dats m) c)),
      (((h c).2 Cert.KernelIdeal.main_arg8 (Pipeline.mem_restRefs_of Cert.KernelIdeal.main_arg8 (by decide) (by decide))).trans (Cert.KernelIdeal.Gen.W_main_arg8 m (Cert.KernelIdeal.Logits.dats m) c)),
      (((h c).2 Cert.KernelIdeal.main_arg9 (Pipeline.mem_restRefs_of Cert.KernelIdeal.main_arg9 (by decide) (by decide))).trans (Cert.KernelIdeal.Gen.W_main_arg9 m (Cert.KernelIdeal.Logits.dats m) c)),
      (((h c).2 Cert.KernelIdeal.main_arg10 (Pipeline.mem_restRefs_of Cert.KernelIdeal.main_arg10 (by decide) (by decide))).trans (Cert.KernelIdeal.Gen.W_main_arg10 m (Cert.KernelIdeal.Logits.dats m) c)),
      (((h c).2 Cert.KernelIdeal.main_arg11 (Pipeline.mem_restRefs_of Cert.KernelIdeal.main_arg11 (by decide) (by decide))).trans (Cert.KernelIdeal.Gen.W_main_arg11 m (Cert.KernelIdeal.Logits.dats m) c)),
      ((h c).1 1).trans (((Cert.KernelIdeal.Logits.dats m 0 c).arrAt_in 1 rfl _).trans ((Cert.KernelIdeal.Logits.A_eq m c 1).trans (Cert.KernelIdeal.Gen.V_main_arg12 m c))),
      ((h c).1 2).trans (((Cert.KernelIdeal.Logits.dats m 0 c).arrAt_in 2 rfl _).trans ((Cert.KernelIdeal.Logits.A_eq m c 2).trans (Cert.KernelIdeal.Gen.V_main_arg13 m c)))⟩)
    (Cert.KernelIdeal.Logits.run_main m ρ)

set_option maxHeartbeats 1000000 in
/-- From memories agreeing on the fourteen arguments both idealized programs end with the same three results: the logits of
    the arrays the kernel's region finds, its hidden row re-laid, and its attention weights. -/
theorem algebraic : Cert.algebraic_KernelIdeal_ReferenceIdeal := by
  intro m ρ m' ρ' _ hagree
  refine ⟨fun c => Cert.KernelIdeal.Logits.regionLogits m c,
    fun c => broadcastInDim Cert.KernelIdeal.S1x1x1024 ![1, 2] Cert.KernelIdeal.Gen.bcast_S1x1024_S1x1x1024_1_2 (Cert.KernelIdeal.Gen.V m c Cert.KernelIdeal.main_v66),
    fun c => Cert.KernelIdeal.Gen.V m c Cert.KernelIdeal.main_v23, ?_, ?_⟩
  · exact kernel_run m ρ
  · refine (θ_run Cert.ReferenceIdeal.defs _ _).mono (fun r h c => ?_) (Cert.ReferenceIdeal.Line.run_line (F := Ideal) m' ρ')
    obtain ⟨a0, a1, a2, a3, a4, a5, a6, a7, a8, a9, a10, a11, a12, a13⟩ := hagree c
    have hag : Cert.Chain.ArgsAgree (launchContents m' c) (launchContents m c) :=
      ⟨a0, a1, a2, a3, a4, a5, a6, a7, a8, a9, a10, a11, a12, a13⟩
    have e70 : r.2.mem ((c.tc : Thread Cert.ReferenceIdeal.nD Cert.ReferenceIdeal.τ).loc Cert.ReferenceIdeal.main_v70) = Cert.KernelIdeal.Logits.regionLogits m c :=
      (h c Cert.ReferenceIdeal.main_v70).trans (Cert.Chain.ref_logits_region m' m c hag)
    have e71 : r.2.mem ((c.tc : Thread Cert.ReferenceIdeal.nD Cert.ReferenceIdeal.τ).loc Cert.ReferenceIdeal.main_v71)
        = broadcastInDim Cert.KernelIdeal.S1x1x1024 ![1, 2] Cert.KernelIdeal.Gen.bcast_S1x1024_S1x1x1024_1_2 (Cert.KernelIdeal.Gen.V m c Cert.KernelIdeal.main_v66) :=
      (h c Cert.ReferenceIdeal.main_v71).trans (Cert.Chain.ref_relaid m' m c hag)
    have e23 : r.2.mem ((c.tc : Thread Cert.ReferenceIdeal.nD Cert.ReferenceIdeal.τ).loc Cert.ReferenceIdeal.main_v23) = Cert.KernelIdeal.Gen.V m c Cert.KernelIdeal.main_v23 :=
      (h c Cert.ReferenceIdeal.main_v23).trans (Cert.Chain.ref_attn m' m c hag)
    refine ⟨e70, e71, e23, ?_⟩
    exact ⟨
      (h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _),
      (h c Cert.ReferenceIdeal.main_arg6).trans (Cert.ReferenceIdeal.Line.kept_arg6 _),
      (h c Cert.ReferenceIdeal.main_arg7).trans (Cert.ReferenceIdeal.Line.kept_arg7 _),
      (h c Cert.ReferenceIdeal.main_arg8).trans (Cert.ReferenceIdeal.Line.kept_arg8 _),
      (h c Cert.ReferenceIdeal.main_arg9).trans (Cert.ReferenceIdeal.Line.kept_arg9 _),
      (h c Cert.ReferenceIdeal.main_arg10).trans (Cert.ReferenceIdeal.Line.kept_arg10 _),
      (h c Cert.ReferenceIdeal.main_arg11).trans (Cert.ReferenceIdeal.Line.kept_arg11 _),
      (h c Cert.ReferenceIdeal.main_arg12).trans (Cert.ReferenceIdeal.Line.kept_arg12 _),
      (h c Cert.ReferenceIdeal.main_arg13).trans (Cert.ReferenceIdeal.Line.kept_arg13 _)⟩

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
